-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x16x16 : Shape := ⟨4, ![64, 512, 16, 16]⟩
abbrev S32x512 : Shape := ⟨2, ![32, 512]⟩
abbrev S512x32 : Shape := ⟨2, ![512, 32]⟩
abbrev S_ : Shape := ⟨0, ![]⟩

class Facts : Prop where
  bcast_S_S64x512x16x16 : S_.BroadcastsInDim S64x512x16x16 (![] : Fin 0 → Fin S64x512x16x16.rank)
  reducesTo_S64x512x16x16_S_d0_1_2_3 : S64x512x16x16.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S64x512x16x16 .f32) (main_arg1 : FVec F S32x512 .f32) (main_arg2 : FVec F S512x32 .f32) : IVec S_ 1 :=
  let main_v0 : FVec F S64x512x16x16 .f32 := Host.absf main_arg0
  let main_cst : FVec F S_ .f32 := constant S_ .f32 0x7F800000#32
  let main_v1 : FVec F S64x512x16x16 .f32 := broadcastInDim S64x512x16x16 ![] bcast_S_S64x512x16x16 main_cst
  let main_v2 : IVec S64x512x16x16 1 := cmpf .olt main_v0 main_v1
  let main_c : IVec S_ 1 := constantI S_ 1 1#1
  let main_v3 : IVec S_ 1 := (fun x v => Host.reduce IntOp.andi x v reducesTo_S64x512x16x16_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S64x512x16x16 : Shape := ⟨4, ![64, 512, 16, 16]⟩
abbrev S32x512 : Shape := ⟨2, ![32, 512]⟩
abbrev S512x32 : Shape := ⟨2, ![512, 32]⟩
abbrev S64x512x256 : Shape := ⟨3, ![64, 512, 256]⟩
abbrev S16x512x256 : Shape := ⟨3, ![16, 512, 256]⟩
abbrev S16x512x128 : Shape := ⟨3, ![16, 512, 128]⟩
abbrev S16x512 : Shape := ⟨2, ![16, 512]⟩
abbrev S16x32 : Shape := ⟨2, ![16, 32]⟩
abbrev S16x512x1 : Shape := ⟨3, ![16, 512, 1]⟩

abbrev nBuf : Space → Nat
  | .hbm => 6
  | .vmem => 6
  | .smem => 0
  | _ => 0

abbrev bufTy : (tb : Table) → Fin (tcTables nBuf tb) → BufTy
  | .hbm, ⟨0, _⟩ => ⟨S64x512x16x16, .f32⟩
  | .hbm, ⟨1, _⟩ => ⟨S32x512, .f32⟩
  | .hbm, ⟨2, _⟩ => ⟨S512x32, .f32⟩
  | .hbm, ⟨3, _⟩ => ⟨S64x512x256, .f32⟩
  | .hbm, ⟨4, _⟩ => ⟨S64x512x256, .f32⟩
  | .hbm, ⟨5, _⟩ => ⟨S64x512x16x16, .f32⟩
  | .local _ .vmem, ⟨0, _⟩ => ⟨S16x512x256, .f32⟩
  | .local _ .vmem, ⟨1, _⟩ => ⟨S16x512x256, .f32⟩
  | .local _ .vmem, ⟨2, _⟩ => ⟨S32x512, .f32⟩
  | .local _ .vmem, ⟨3, _⟩ => ⟨S512x32, .f32⟩
  | .local _ .vmem, ⟨4, _⟩ => ⟨S16x512x256, .f32⟩
  | .local _ .vmem, ⟨5, _⟩ => ⟨S16x512x256, .f32⟩
  | _, _ => ⟨S64x512x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x16x16_S64x512x256 : S64x512x16x16.ShapeCasts S64x512x256
  inb_S16x512x256_S16x512x256_0_0_0 : ∀ a, (![0, 0, 0] : Fin 3 → Nat) a + S16x512x256.size a ≤ S16x512x256.size a
  h_S16x512x256 : 0 < S16x512x256.numel
  shapeCasts_S16x512x256_S16x512x256 : S16x512x256.ShapeCasts S16x512x256
  slices_S16x512x256_o0_0_0_S16x512x128 : S16x512x256.Slices ![0, 0, 0] S16x512x128
  slices_S16x512x256_o0_0_128_S16x512x128 : S16x512x256.Slices ![0, 0, 128] S16x512x128
  reduces_S16x512x128_S16x512 : S16x512x128.Reduces [2] S16x512
  inb_S32x512_S32x512_0_0 : ∀ a, (![0, 0] : Fin 2 → Nat) a + S32x512.size a ≤ S32x512.size a
  h_S32x512 : 0 < S32x512.numel
  inb_S512x32_S512x32_0_0 : ∀ a, (![0, 0] : Fin 2 → Nat) a + S512x32.size a ≤ S512x32.size a
  h_S512x32 : 0 < S512x32.numel
  shapeCasts_S16x512_S16x512x1 : S16x512.ShapeCasts S16x512x1
  broadcasts_S16x512x1_S16x512x256 : S16x512x1.Broadcasts S16x512x256
  shapeCasts_S64x512x256_S64x512x16x16 : S64x512x256.ShapeCasts S64x512x16x16
  dot_S16x512_S32x512_S16x32_1_1_0_0_n_n_wf : DotDims.WF S16x512 S32x512 S16x32 [1] [1] [0] [0] [] []
  dot_S16x32_S512x32_S16x512_1_1_0_0_n_n_wf : DotDims.WF S16x32 S512x32 S16x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x256.size a ≤ S64x512x256.size a
  hwx0_0 : ∀ i : grid0.Coords, EltTy.bits .f32 = 32 ∨ (Rect.block (s := S64x512x256) S16x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512x256.size a ≤ S64x512x256.size a
  hwx0_3 : ∀ i : grid0.Coords, EltTy.bits .f32 = 32 ∨ (Rect.block (s := S64x512x256) S16x512x256.size (cc0_transform_3 i) (hinb0_3 i)).WholeWords (EltTy.packing .f32)

variable [Facts₀]

def dot_S16x512_S32x512_S16x32_1_1_0_0_n_n : DotDims S16x512 S32x512 S16x32 where
  lhsContracting := [1]
  rhsContracting := [1]
  lhsNonContracting := [0]
  rhsNonContracting := [0]
  lhsBatch := []
  rhsBatch := []
  wf := dot_S16x512_S32x512_S16x32_1_1_0_0_n_n_wf
def dot_S16x32_S512x32_S16x512_1_1_0_0_n_n : DotDims S16x32 S512x32 S16x512 where
  lhsContracting := [1]
  rhsContracting := [1]
  lhsNonContracting := [0]
  rhsNonContracting := [0]
  lhsBatch := []
  rhsBatch := []
  wf := dot_S16x32_S512x32_S16x512_1_1_0_0_n_n_wf

abbrev win0_0 : Pipeline.Window sig grid0 :=
  Pipeline.Window.ofSpec (Memref.whole main_v0) S16x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x16x16 : Shape := ⟨4, ![64, 512, 16, 16]⟩
abbrev S32x512 : Shape := ⟨2, ![32, 512]⟩
abbrev S512x32 : Shape := ⟨2, ![512, 32]⟩
abbrev S64x512x256 : Shape := ⟨3, ![64, 512, 256]⟩
abbrev S12x512x256 : Shape := ⟨3, ![12, 512, 256]⟩
abbrev S12x512 : Shape := ⟨2, ![12, 512]⟩
abbrev S24x512 : Shape := ⟨2, ![24, 512]⟩
abbrev S24x32 : Shape := ⟨2, ![24, 32]⟩
abbrev S12x512x1 : Shape := ⟨3, ![12, 512, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x512x16x16, .f32⟩
  | .hbm, ⟨1, _⟩ => ⟨S32x512, .f32⟩
  | .hbm, ⟨2, _⟩ => ⟨S512x32, .f32⟩
  | .hbm, ⟨3, _⟩ => ⟨S64x512x256, .f32⟩
  | .hbm, ⟨4, _⟩ => ⟨S512x32, .f32⟩
  | .hbm, ⟨5, _⟩ => ⟨S32x512, .f32⟩
  | .hbm, ⟨6, _⟩ => ⟨S64x512x256, .f32⟩
  | .hbm, ⟨7, _⟩ => ⟨S64x512x16x16, .f32⟩
  | .local _ .vmem, ⟨0, _⟩ => ⟨S12x512x256, .f32⟩
  | .local _ .vmem, ⟨1, _⟩ => ⟨S12x512x256, .f32⟩
  | .local _ .vmem, ⟨2, _⟩ => ⟨S512x32, .f32⟩
  | .local _ .vmem, ⟨3, _⟩ => ⟨S32x512, .f32⟩
  | .local _ .vmem, ⟨4, _⟩ => ⟨S12x512x256, .f32⟩
  | .local _ .vmem, ⟨5, _⟩ => ⟨S12x512x256, .f32⟩
  | _, _ => ⟨S64x512x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x16x16_S64x512x256 : S64x512x16x16.ShapeCasts S64x512x256
  transposes_S32x512_S512x32_1_0 : S32x512.Transposes [1, 0] S512x32
  transposes_S512x32_S32x512_1_0 : S512x32.Transposes [1, 0] S32x512
  inb_S12x512x256_S12x512x256_0_0_0 : ∀ a, (![0, 0, 0] : Fin 3 → Nat) a + S12x512x256.size a ≤ S12x512x256.size a
  h_S12x512x256 : 0 < S12x512x256.numel
  shapeCasts_S12x512x256_S12x512x256 : S12x512x256.ShapeCasts S12x512x256
  reduces_S12x512x256_S12x512 : S12x512x256.Reduces [2] S12x512
  concatenates_S12x512_S12x512_S24x512_d0 : Shape.Concatenates [S12x512, S12x512] S24x512 0
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  slices_S24x512_o0_0_S12x512 : S24x512.Slices ![0, 0] S12x512
  slices_S24x512_o12_0_S12x512 : S24x512.Slices ![12, 0] S12x512
  shapeCasts_S12x512_S12x512x1 : S12x512.ShapeCasts S12x512x1
  broadcasts_S12x512x1_S12x512x256 : S12x512x1.Broadcasts S12x512x256
  shapeCasts_S64x512x256_S64x512x16x16 : S64x512x256.ShapeCasts S64x512x16x16
  dot_S24x512_S512x32_S24x32_1_0_0_1_n_n_wf : DotDims.WF S24x512 S512x32 S24x32 [1] [0] [0] [1] [] []
  dot_S24x32_S32x512_S24x512_1_0_0_1_n_n_wf : DotDims.WF S24x32 S32x512 S24x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12x512x256.size a < S64x512x256.size a
  hwx0_0 : ∀ i : grid0.Coords, EltTy.bits .f32 = 32 ∨ (Rect.unit (s := S64x512x256) (fun a => cc0_transform_0 i a * S12x512x256.size a) (fun a => (Pipeline.Clip.of (cc0_transform_0 i a) (S12x512x256.size a) (S64x512x256.size a)).extent (S12x512x256.size a)) fun a => Pipeline.Clip.inb (Pipeline.Clip.ok_of (hstart0_0 i a))).WholeWords (EltTy.packing .f32)
  hwxs0_0 : ∀ i : grid0.Coords, EltTy.bits .f32 = 32 ∨ (Rect.unit (s := S12x512x256) (fun _ => 0) (fun a => (Pipeline.Clip.of (cc0_transform_0 i a) (S12x512x256.size a) (S64x512x256.size a)).extent (S12x512x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S12x512x256.size a < S64x512x256.size a
  hwx0_3 : ∀ i : grid0.Coords, EltTy.bits .f32 = 32 ∨ (Rect.unit (s := S64x512x256) (fun a => cc0_transform_3 i a * S12x512x256.size a) (fun a => (Pipeline.Clip.of (cc0_transform_3 i a) (S12x512x256.size a) (S64x512x256.size a)).extent (S12x512x256.size a)) fun a => Pipeline.Clip.inb (Pipeline.Clip.ok_of (hstart0_3 i a))).WholeWords (EltTy.packing .f32)
  hwxs0_3 : ∀ i : grid0.Coords, EltTy.bits .f32 = 32 ∨ (Rect.unit (s := S12x512x256) (fun _ => 0) (fun a => (Pipeline.Clip.of (cc0_transform_3 i a) (S12x512x256.size a) (S64x512x256.size a)).extent (S12x512x256.size a)) fun a => (Nat.zero_add _).trans_le (Pipeline.Clip.extent_le (Pipeline.Clip.ok_of (hstart0_3 i a)))).WholeWords (EltTy.packing .f32)

variable [Facts₀]

def dot_S24x512_S512x32_S24x32_1_0_0_1_n_n : DotDims S24x512 S512x32 S24x32 where
  lhsContracting := [1]
  rhsContracting := [0]
  lhsNonContracting := [0]
  rhsNonContracting := [1]
  lhsBatch := []
  rhsBatch := []
  wf := dot_S24x512_S512x32_S24x32_1_0_0_1_n_n_wf
def dot_S24x32_S32x512_S24x512_1_0_0_1_n_n : DotDims S24x32 S32x512 S24x512 where
  lhsContracting := [1]
  rhsContracting := [0]
  lhsNonContracting := [0]
  rhsNonContracting := [1]
  lhsBatch := []
  rhsBatch := []
  wf := dot_S24x32_S32x512_S24x512_1_0_0_1_n_n_wf

abbrev win0_0 : Pipeline.Window sig grid0 :=
  Pipeline.Window.ofSpecClip (Memref.whole main_v0) S12x512x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v3) S12x512x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibFoldHalves.lean ====
import Mathlib.Data.EReal.Operations
import Mathlib.Data.Finset.Fold
import Mathlib.Algebra.BigOperators.Fin

/-!
# Reducing an axis in two halves, and projecting a sum of non-negative vectors

Two facts for kernels that rearrange a reduction or a projection without changing its value over the extended reals.

* A kernel may fold an axis of `2 n` places to `n` by combining place `l` with place `n + l` before reducing. For a sum in
  any additive commutative monoid (`sum_halves`) and for a fold of `max` from any starting value in any linear order
  (`fold_max_halves`) the reduction over the `n` combined places is the reduction over all `2 n`. Extended reals are an
  instance of both, infinities included: no finiteness is asked.
* `∑ i, (a i + b i) * w i = ∑ i, a i * w i + ∑ i, b i * w i` on the extended reals when every `a i` and `b i` is
  non-negative (`sum_add_mul_of_nonneg`): the sum of two non-negative extended reals distributes over any factor, so a
  projection applied once to the sum of two rectified vectors is the sum of their projections, infinities included.
-/

namespace Cert.Lib.FoldHalves

open Finset

/-- A sum over `n + n` places is the sum over `n` of place `l` plus place `n + l`. -/
theorem sum_halves {M : Type*} [AddCommMonoid M] {n : Nat} (f : Fin (n + n) → M) :
    ∑ l : Fin n, (f (Fin.castAdd n l) + f (Fin.natAdd n l)) = ∑ l : Fin (n + n), f l := by
  rw [Finset.sum_add_distrib]
  exact (Fin.sum_univ_add f).symm

/-- A fold of `max` over `n + n` places is the fold over `n` of the larger of place `l` and place `n + l`. -/
theorem fold_max_halves {β : Type*} [LinearOrder β] {n : Nat} (b : β) (f : Fin (n + n) → β) :
    (univ : Finset (Fin n)).fold max b (fun l => max (f (Fin.castAdd n l)) (f (Fin.natAdd n l)))
      = (univ : Finset (Fin (n + n))).fold max b f := by
  apply le_antisymm
  · refine (Finset.fold_max_le _).mpr ⟨(Finset.le_fold_max _).mpr (Or.inl le_rfl), fun l _ => max_le ?_ ?_⟩
    · exact (Finset.le_fold_max _).mpr (Or.inr ⟨Fin.castAdd n l, mem_univ _, le_rfl⟩)
    · exact (Finset.le_fold_max _).mpr (Or.inr ⟨Fin.natAdd n l, mem_univ _, le_rfl⟩)
  · refine (Finset.fold_max_le _).mpr ⟨(Finset.le_fold_max _).mpr (Or.inl le_rfl), fun l _ => ?_⟩
    by_cases hl : l.val < n
    · refine (Finset.le_fold_max _).mpr (Or.inr ⟨⟨l.val, hl⟩, mem_univ _, ?_⟩)
      exact le_max_of_le_left (le_of_eq (congrArg f (Fin.ext rfl)))
    · have hlt : l.val - n < n := by have := l.isLt; omega
      refine (Finset.le_fold_max _).mpr (Or.inr ⟨⟨l.val - n, hlt⟩, mem_univ _, ?_⟩)
      exact le_max_of_le_right (le_of_eq (congrArg f (Fin.ext (by
        show l.val = n + (l.val - n)
        omega))))

/-- Projecting the sum of two non-negative families is the sum of their projections, on the extended reals. -/
theorem sum_add_mul_of_nonneg {ι : Type*} (s : Finset ι) (a b w : ι → EReal) (ha : ∀ i, 0 ≤ a i) (hb : ∀ i, 0 ≤ b i) :
    ∑ i ∈ s, (a i + b i) * w i = ∑ i ∈ s, a i * w i + ∑ i ∈ s, b i * w i := by
  rw [← Finset.sum_add_distrib]
  exact Finset.sum_congr rfl fun i _ => EReal.right_distrib_of_nonneg (ha i) (hb i)

end Cert.Lib.FoldHalves
-- ==== Proof.Spec.lean ====
import Idealize.ShloMosaic.PureOps.Ideal
import Idealize.ShloMosaic.PureOps.Ideal.Laws
import Idealize.ShloMosaic.Lib.ValueIdx
import Mathlib.Data.Finset.Fold
import proofs.«103905_g2000206657440229_pallasbulk_1272_17_alg».proof.Proof.LibFoldHalves

/-!
# Channel attention over the extended reals

For one batch element, a row `xr : channel → lane → EReal` (512 channels, 256 lanes), the gate of channel `c` is

  `logistic (∑ h, relu (∑ c', avg c' · w1 h c') · w2 c h + ∑ h, relu (∑ c', mx c' · w1 h c') · w2 c h)`

with `avg c' = (∑ l, xr c' l) · 2⁻⁸` and `mx c' = max over l of xr c' l` (a fold of `max` from −∞), and the result at
`(b, c, l)` is `x (b, c, l) · gate (row b) c`.

Two arrangements of the same number are related here. One folds the 256 lanes in two halves first
(`∑ l < 128, (xr c l + xr c (128 + l))`, and likewise for the maximum): sums and maxima of finitely many extended reals
do not depend on grouping. The other applies the second projection once to the SUM of the two rectified hidden vectors:
`∑ h, (a h + b h) · w h = ∑ h, a h · w h + ∑ h, b h · w h`, which on the extended reals holds because rectified values are
non-negative (a sum of two non-negative extended reals distributes over any factor, infinities included).
-/

noncomputable section

namespace Cert.Spec

open Idealize.ShloMosaic Idealize.ShloMosaic.ValueIdx

/-- The literal `2⁻⁸ = 1/256`, as both programs spell it. -/
def invLanes : EReal := Ideal.ofBits .f32 0x3B800000#32
/-- The literal zero the rectifier compares with. -/
def zeroLit : EReal := Ideal.ofBits .f32 0x00000000#32
/-- The literal `−∞` the maximum starts from. -/
def negInf : EReal := Ideal.ofBits .f32 0xFF800000#32

theorem zeroLit_eq : zeroLit = 0 := Ideal.ofBits_zero_f32

/-- The mean of a channel over its 256 lanes. -/
def avgOf (xr : Fin 512 → Fin 256 → EReal) (c : Fin 512) : EReal := (∑ l : Fin 256, xr c l) * invLanes
/-- The maximum of a channel over its 256 lanes. -/
def maxOf (xr : Fin 512 → Fin 256 → EReal) (c : Fin 512) : EReal :=
  (Finset.univ : Finset (Fin 256)).fold max negInf (fun l => xr c l)
/-- One hidden unit of the shared bottleneck: the rectified projection of a pooled vector. -/
def hidden (p : Fin 512 → EReal) (w1 : Fin 32 → Fin 512 → EReal) (h : Fin 32) : EReal :=
  max (∑ c : Fin 512, p c * w1 h c) zeroLit
/-- The logit of channel `c`: the second projection of the mean's hidden vector plus that of the maximum's. -/
def logit (xr : Fin 512 → Fin 256 → EReal) (w1 : Fin 32 → Fin 512 → EReal) (w2 : Fin 512 → Fin 32 → EReal) (c : Fin 512) : EReal :=
  (∑ h : Fin 32, hidden (avgOf xr) w1 h * w2 c h) + ∑ h : Fin 32, hidden (maxOf xr) w1 h * w2 c h
/-- The gate of channel `c`. -/
def gate (xr : Fin 512 → Fin 256 → EReal) (w1 : Fin 32 → Fin 512 → EReal) (w2 : Fin 512 → Fin 32 → EReal) (c : Fin 512) : EReal :=
  Ideal.logistic (logit xr w1 w2 c)

/-! ## The arrangement that folds the lanes in two halves and projects the summed hidden vector once -/

/-- Lane `l` of the lower half. -/
def lo (l : Fin 128) : Fin 256 := ⟨l.val, by omega⟩
/-- Lane `128 + l` of the upper half. -/
def hi (l : Fin 128) : Fin 256 := ⟨128 + l.val, by omega⟩

def avgOf' (xr : Fin 512 → Fin 256 → EReal) (c : Fin 512) : EReal := (∑ l : Fin 128, (xr c (lo l) + xr c (hi l))) * invLanes
def maxOf' (xr : Fin 512 → Fin 256 → EReal) (c : Fin 512) : EReal :=
  (Finset.univ : Finset (Fin 128)).fold max negInf (fun l => max (xr c (lo l)) (xr c (hi l)))
def logit' (xr : Fin 512 → Fin 256 → EReal) (w1 : Fin 32 → Fin 512 → EReal) (w2 : Fin 512 → Fin 32 → EReal) (c : Fin 512) : EReal :=
  ∑ h : Fin 32, (hidden (avgOf' xr) w1 h + hidden (maxOf' xr) w1 h) * w2 c h

/-- A sum over 256 lanes is the sum over 128 of the two halves' terms. -/
theorem sum_halves (f : Fin 256 → EReal) : ∑ l : Fin 128, (f (lo l) + f (hi l)) = ∑ l : Fin 256, f l :=
  Cert.Lib.FoldHalves.sum_halves (n := 128) f

/-- A maximum over 256 lanes is the maximum over 128 of the two halves' pairwise maxima. -/
theorem fold_max_halves (b : EReal) (f : Fin 256 → EReal) :
    (Finset.univ : Finset (Fin 128)).fold max b (fun l => max (f (lo l)) (f (hi l)))
      = (Finset.univ : Finset (Fin 256)).fold max b f :=
  Cert.Lib.FoldHalves.fold_max_halves (n := 128) b f

theorem avgOf'_eq (xr : Fin 512 → Fin 256 → EReal) : avgOf' xr = avgOf xr := by
  funext c; unfold avgOf' avgOf; rw [sum_halves (fun l => xr c l)]

theorem maxOf'_eq (xr : Fin 512 → Fin 256 → EReal) : maxOf' xr = maxOf xr := by
  funext c; unfold maxOf' maxOf; exact fold_max_halves negInf (fun l => xr c l)

theorem hidden_nonneg (p : Fin 512 → EReal) (w1 : Fin 32 → Fin 512 → EReal) (h : Fin 32) : 0 ≤ hidden p w1 h := by
  unfold hidden; rw [zeroLit_eq]; exact le_max_right _ _

/-- Projecting the sum of two non-negative vectors is the sum of the projections. -/
theorem sum_add_mul (a b w : Fin 32 → EReal) (ha : ∀ h, 0 ≤ a h) (hb : ∀ h, 0 ≤ b h) :
    ∑ h, (a h + b h) * w h = ∑ h, a h * w h + ∑ h, b h * w h :=
  Cert.Lib.FoldHalves.sum_add_mul_of_nonneg Finset.univ a b w ha hb

theorem logit'_eq (xr : Fin 512 → Fin 256 → EReal) (w1 : Fin 32 → Fin 512 → EReal) (w2 : Fin 512 → Fin 32 → EReal) (c : Fin 512) :
    logit' xr w1 w2 c = logit xr w1 w2 c := by
  unfold logit' logit
  rw [avgOf'_eq, maxOf'_eq]
  exact sum_add_mul _ _ _ (hidden_nonneg _ _) (hidden_nonneg _ _)

/-! ## Arrays -/

/-- Row `r` of an array of `n` batch elements. -/
def rowOf {n : Nat} (X : (⟨3, ![n, 512, 256]⟩ : Shape).Idx → EReal) (r : Fin n) : Fin 512 → Fin 256 → EReal :=
  fun c l => X (ix3 r c l)
/-- The first projection's weights `[hidden, channel]`. -/
def w1Of (W : (⟨2, ![32, 512]⟩ : Shape).Idx → EReal) : Fin 32 → Fin 512 → EReal := fun h c => W (ix2 h c)
/-- The second projection's weights `[channel, hidden]`. -/
def w2Of (W : (⟨2, ![512, 32]⟩ : Shape).Idx → EReal) : Fin 512 → Fin 32 → EReal := fun c h => W (ix2 c h)

/-- The gated array: every element times its batch element's gate of its channel. -/
def gated {n : Nat} (X : (⟨3, ![n, 512, 256]⟩ : Shape).Idx → EReal) (W1 : (⟨2, ![32, 512]⟩ : Shape).Idx → EReal)
    (W2 : (⟨2, ![512, 32]⟩ : Shape).Idx → EReal) : (⟨3, ![n, 512, 256]⟩ : Shape).Idx → EReal :=
  fun i => X i * gate (rowOf X (i 0)) (w1Of W1) (w2Of W2) (i 1)

theorem gated_ix3 {n : Nat} (X : (⟨3, ![n, 512, 256]⟩ : Shape).Idx → EReal) (W1 : (⟨2, ![32, 512]⟩ : Shape).Idx → EReal)
    (W2 : (⟨2, ![512, 32]⟩ : Shape).Idx → EReal) (r : Fin n) (c : Fin 512) (l : Fin 256) :
    gated X W1 W2 (ix3 r c l) = X (ix3 r c l) * gate (rowOf X r) (w1Of W1) (w2Of W2) c := rfl

/-! ## The whole result -/

abbrev S4 : Shape := ⟨4, ![64, 512, 16, 16]⟩
abbrev S3 : Shape := ⟨3, ![64, 512, 256]⟩

/-- The result of either program as a function of its three arguments: the input with its two spatial axes flattened
    into 256 lanes, gated, and given its two spatial axes back. -/
def result (h1 : S4.ShapeCasts S3) (h2 : S3.ShapeCasts S4) (x : S4.Idx → EReal) (W1 : (⟨2, ![32, 512]⟩ : Shape).Idx → EReal)
    (W2 : (⟨2, ![512, 32]⟩ : Shape).Idx → EReal) : S4.Idx → EReal :=
  shapeCast S4 (gated (n := 64) (shapeCast S3 x h1) W1 W2) h2

end Cert.Spec

end
-- ==== Proof.KerPay.lean ====
import proofs.«103905_g2000206657440229_pallasbulk_1272_17_alg».proof.Proof.Gen.KernelIdeal.Skeleton
import proofs.«103905_g2000206657440229_pallasbulk_1272_17_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The first program's block computation, element by element

The body works on a block of sixteen batch elements, each 512 channels by 256 lanes. It folds the 256 lanes into 128
by adding (and, separately, by taking the maximum of) lane l and lane 128 + l, sums (takes the maximum of) the 128
folded lanes, scales the sum by 2⁻⁸, projects the two pooled vectors onto the 32 hidden units, rectifies each, adds
the two rectified vectors, projects the sum back onto the 512 channels, applies the logistic function, and multiplies
every lane of the element's channel by the result.

Read at an index (r, c, l) the stored value is x (r, c, l) · logistic (logit' (row r) w1 w2 c), where logit' is the
specification's arrangement with the lanes folded in two halves and the summed hidden vector projected once.
-/

noncomputable section

namespace Cert.KernelIdeal.Hand

open Idealize.ShloMosaic Idealize.ShloMosaic.ValueIdx Cert.KernelIdeal Cert.KernelIdeal.Gen Cert.Spec

/-! ## The two matrix products at an index -/

/-- The first projection: [16, 512] against [32, 512], contracting the channel axis of both. -/
abbrev D1 : DotDims S16x512 S32x512 S16x32 := dot_S16x512_S32x512_S16x32_1_1_0_0_n_n
/-- The second projection: [16, 32] against [512, 32], contracting the hidden axis of both. -/
abbrev D2 : DotDims S16x32 S512x32 S16x512 := dot_S16x32_S512x32_S16x512_1_1_0_0_n_n

theorem D1_lhs0 (i : S16x32.Idx) (q : D1.contr.Idx) : (D1.lhsIdx i q 0).val = (i 0).val := by
  unfold DotDims.lhsIdx
  rw [dif_neg (show ¬(0 : Fin S16x512.rank) ∈ D1.lhsBatch by decide), dif_pos (show (0 : Fin S16x512.rank) ∈ D1.lhsNonContracting by decide)]
  rfl
theorem D1_lhs1 (i : S16x32.Idx) (q : D1.contr.Idx) : (D1.lhsIdx i q 1).val = (q ⟨0, by decide⟩).val :=
  D1.lhsIdx_val_of_single rfl i q
theorem D1_rhs0 (i : S16x32.Idx) (q : D1.contr.Idx) : (D1.rhsIdx i q 0).val = (i 1).val := by
  unfold DotDims.rhsIdx
  rw [dif_neg (show ¬(0 : Fin S32x512.rank) ∈ D1.rhsBatch by decide), dif_pos (show (0 : Fin S32x512.rank) ∈ D1.rhsNonContracting by decide)]
  rfl
theorem D1_rhs1 (i : S16x32.Idx) (q : D1.contr.Idx) : (D1.rhsIdx i q 1).val = (q ⟨0, by decide⟩).val :=
  D1.rhsIdx_val_of_single rfl i q

theorem D2_lhs0 (i : S16x512.Idx) (q : D2.contr.Idx) : (D2.lhsIdx i q 0).val = (i 0).val := by
  unfold DotDims.lhsIdx
  rw [dif_neg (show ¬(0 : Fin S16x32.rank) ∈ D2.lhsBatch by decide), dif_pos (show (0 : Fin S16x32.rank) ∈ D2.lhsNonContracting by decide)]
  rfl
theorem D2_lhs1 (i : S16x512.Idx) (q : D2.contr.Idx) : (D2.lhsIdx i q 1).val = (q ⟨0, by decide⟩).val :=
  D2.lhsIdx_val_of_single rfl i q
theorem D2_rhs0 (i : S16x512.Idx) (q : D2.contr.Idx) : (D2.rhsIdx i q 0).val = (i 1).val := by
  unfold DotDims.rhsIdx
  rw [dif_neg (show ¬(0 : Fin S512x32.rank) ∈ D2.rhsBatch by decide), dif_pos (show (0 : Fin S512x32.rank) ∈ D2.rhsNonContracting by decide)]
  rfl
theorem D2_rhs1 (i : S16x512.Idx) (q : D2.contr.Idx) : (D2.rhsIdx i q 1).val = (q ⟨0, by decide⟩).val :=
  D2.rhsIdx_val_of_single rfl i q

/-- Element (r, h) of the first product into a zero accumulator is ∑ k, P (r, k) · W (h, k). -/
theorem mm1_apply (P : FVec Ideal S16x512 .f32) (W : FVec Ideal S32x512 .f32) (r : Fin 16) (h : Fin 32) :
    matmul D1 none P W (constant S16x32 .f32 0x00000000#32) (ix2 r h) = ∑ k : Fin 512, P (ix2 r k) * W (ix2 h k) := by
  simp only [matmul]
  rw [Ideal.matmul_constant_zero_apply, ← Equiv.sum_comp (contrEquiv1 D1 512 rfl rfl).symm]
  refine Finset.sum_congr rfl fun k _ => ?_
  have hk := contrEquiv1_symm_val D1 512 rfl rfl k
  have el : D1.lhsIdx (ix2 r h) ((contrEquiv1 D1 512 rfl rfl).symm k) = ix2 r k := funext fun a => Fin.ext (by
    match a with
    | ⟨0, _⟩ => exact D1_lhs0 _ _
    | ⟨1, _⟩ => exact (D1_lhs1 _ _).trans hk)
  have er : D1.rhsIdx (ix2 r h) ((contrEquiv1 D1 512 rfl rfl).symm k) = ix2 h k := funext fun a => Fin.ext (by
    match a with
    | ⟨0, _⟩ => exact D1_rhs0 _ _
    | ⟨1, _⟩ => exact (D1_rhs1 _ _).trans hk)
  rw [el, er]

/-- Element (r, c) of the second product into a zero accumulator is ∑ k, H (r, k) · W (c, k). -/
theorem mm2_apply (H : FVec Ideal S16x32 .f32) (W : FVec Ideal S512x32 .f32) (r : Fin 16) (c : Fin 512) :
    matmul D2 none H W (constant S16x512 .f32 0x00000000#32) (ix2 r c) = ∑ k : Fin 32, H (ix2 r k) * W (ix2 c k) := by
  simp only [matmul]
  rw [Ideal.matmul_constant_zero_apply, ← Equiv.sum_comp (contrEquiv1 D2 32 rfl rfl).symm]
  refine Finset.sum_congr rfl fun k _ => ?_
  have hk := contrEquiv1_symm_val D2 32 rfl rfl k
  have el : D2.lhsIdx (ix2 r c) ((contrEquiv1 D2 32 rfl rfl).symm k) = ix2 r k := funext fun a => Fin.ext (by
    match a with
    | ⟨0, _⟩ => exact D2_lhs0 _ _
    | ⟨1, _⟩ => exact (D2_lhs1 _ _).trans hk)
  have er : D2.rhsIdx (ix2 r c) ((contrEquiv1 D2 32 rfl rfl).symm k) = ix2 c k := funext fun a => Fin.ext (by
    match a with
    | ⟨0, _⟩ => exact D2_rhs0 _ _
    | ⟨1, _⟩ => exact (D2_rhs1 _ _).trans hk)
  rw [el, er]

/-! ## The body's stages -/

section Stages

variable (x0 x0' : FVec Ideal S16x512x256 .f32) (W1 W1' : FVec Ideal S32x512 .f32) (W2 : FVec Ideal S512x32 .f32)

/-- The block as loaded (a cast to its own shape). -/
def blk : FVec Ideal S16x512x256 .f32 := shapeCast S16x512x256 x0 shapeCasts_S16x512x256_S16x512x256
/-- Lane l plus lane 128 + l. -/
def foldAdd : FVec Ideal S16x512x128 .f32 :=
  addf (extractStridedSlice S16x512x128 ![0, 0, 0] (blk x0) slices_S16x512x256_o0_0_0_S16x512x128)
    (extractStridedSlice S16x512x128 ![0, 0, 128] (blk x0) slices_S16x512x256_o0_0_128_S16x512x128)
/-- The larger of lane l and lane 128 + l. -/
def foldMax : FVec Ideal S16x512x128 .f32 :=
  maximumf (extractStridedSlice S16x512x128 ![0, 0, 0] (blk x0) slices_S16x512x256_o0_0_0_S16x512x128)
    (extractStridedSlice S16x512x128 ![0, 0, 128] (blk x0) slices_S16x512x256_o0_0_128_S16x512x128)
/-- Each channel's sum over the folded lanes. -/
def sumS : FVec Ideal S16x512 .f32 :=
  multiReduction .add [2] S16x512 (foldAdd x0) 0x00000000#32 reduces_S16x512x128_S16x512 (.inl rfl) rfl
/-- Each channel's maximum over the folded lanes. -/
def maxS : FVec Ideal S16x512 .f32 :=
  multiReduction .maximumf [2] S16x512 (foldMax x0) 0xFF800000#32 reduces_S16x512x128_S16x512 (.inl rfl) rfl
/-- Each channel's mean. -/
def avgS : FVec Ideal S16x512 .f32 := mulf (sumS x0) (broadcast S16x512 (Scalar.ofBits .f32 0x3B800000#32))
/-- The rectified first projection of a pooled block. -/
def hidS (P : FVec Ideal S16x512 .f32) (W : FVec Ideal S32x512 .f32) : FVec Ideal S16x32 .f32 :=
  maximumf (matmul D1 none P W (constant S16x32 .f32 0x00000000#32)) (broadcast S16x32 (Scalar.ofBits .f32 0x00000000#32))
/-- The second projection of the two rectified vectors' sum. -/
def logitS : FVec Ideal S16x512 .f32 :=
  matmul D2 none (addf (hidS (avgS x0) W1) (hidS (maxS x0) W1')) W2 (constant S16x512 .f32 0x00000000#32)
/-- The stored block. -/
def pay : FVec Ideal S16x512x256 .f32 :=
  mulf (blk x0')
    (broadcastTo S16x512x256 (shapeCast S16x512x1 (logistic (logitS x0 W1 W1' W2)) shapeCasts_S16x512_S16x512x1) broadcasts_S16x512x1_S16x512x256)

/-- The printed payload is these stages composed. -/
theorem k0_pay1_eq : k0_pay1 (F := Ideal) x0 W1 W1' W2 x0' = pay x0 x0' W1 W1' W2 := rfl

/-! ## Each stage at an index -/

theorem blk_eq : blk x0 = x0 := shapeCast_self x0 _

theorem sliceLo_apply (r : Fin 16) (c : Fin 512) (k : Fin 128) :
    extractStridedSlice S16x512x128 ![0, 0, 0] (blk x0) slices_S16x512x256_o0_0_0_S16x512x128 (ix3 r c k) = x0 (ix3 r c (lo k)) := by
  rw [blk_eq]
  exact extractStridedSlice_apply _ x0 _ (ix3 r c k) (ix3 r c (lo k)) (fun a => by
    match a with
    | ⟨0, _⟩ => exact (Nat.zero_add _).symm
    | ⟨1, _⟩ => exact (Nat.zero_add _).symm
    | ⟨2, _⟩ => exact (Nat.zero_add _).symm)

theorem sliceHi_apply (r : Fin 16) (c : Fin 512) (k : Fin 128) :
    extractStridedSlice S16x512x128 ![0, 0, 128] (blk x0) slices_S16x512x256_o0_0_128_S16x512x128 (ix3 r c k) = x0 (ix3 r c (hi k)) := by
  rw [blk_eq]
  exact extractStridedSlice_apply _ x0 _ (ix3 r c k) (ix3 r c (hi k)) (fun a => by
    match a with
    | ⟨0, _⟩ => exact (Nat.zero_add _).symm
    | ⟨1, _⟩ => exact (Nat.zero_add _).symm
    | ⟨2, _⟩ => rfl)

theorem foldAdd_apply (r : Fin 16) (c : Fin 512) (k : Fin 128) :
    foldAdd x0 (ix3 r c k) = x0 (ix3 r c (lo k)) + x0 (ix3 r c (hi k)) :=
  congrArg₂ (· + ·) (sliceLo_apply x0 r c k) (sliceHi_apply x0 r c k)

theorem foldMax_apply (r : Fin 16) (c : Fin 512) (k : Fin 128) :
    foldMax x0 (ix3 r c k) = max (x0 (ix3 r c (lo k))) (x0 (ix3 r c (hi k))) :=
  congrArg₂ max (sliceLo_apply x0 r c k) (sliceHi_apply x0 r c k)

/-- The reduced index (r, c) with lane k put back is (r, c, k). -/
theorem lift_eq (r : Fin 16) (c : Fin 512) (k : Fin 128) :
    (reduces_S16x512x128_S16x512 : S16x512x128.Reduces [2] S16x512).lift (ix2 r c) k = ix3 r c k :=
  funext fun a => Fin.ext (by
    match a with
    | ⟨0, _⟩ => rfl
    | ⟨1, _⟩ => rfl
    | ⟨2, _⟩ => rfl)

theorem sumS_apply (r : Fin 16) (c : Fin 512) :
    sumS x0 (ix2 r c) = ∑ k : Fin 128, (x0 (ix3 r c (lo k)) + x0 (ix3 r c (hi k))) := by
  unfold sumS
  refine (Ideal.multiReduction_add_single (foldAdd x0) 0x00000000#32 reduces_S16x512x128_S16x512 (.inl rfl) rfl (ix2 r c)).trans ?_
  show ∑ k : Fin 128, foldAdd x0 ((reduces_S16x512x128_S16x512 : S16x512x128.Reduces [2] S16x512).lift (ix2 r c) k) = _
  exact Finset.sum_congr rfl fun k _ => by rw [lift_eq, foldAdd_apply]

theorem maxS_apply (r : Fin 16) (c : Fin 512) :
    maxS x0 (ix2 r c) = (Finset.univ : Finset (Fin 128)).fold max negInf (fun k => max (x0 (ix3 r c (lo k))) (x0 (ix3 r c (hi k)))) := by
  unfold maxS
  refine (Ideal.multiReduction_maximumf_single (foldMax x0) 0xFF800000#32 reduces_S16x512x128_S16x512 (.inl rfl) rfl (ix2 r c)).trans ?_
  show (Finset.univ : Finset (Fin 128)).fold max negInf
    (fun k => foldMax x0 ((reduces_S16x512x128_S16x512 : S16x512x128.Reduces [2] S16x512).lift (ix2 r c) k)) = _
  exact congrArg (fun f : Fin 128 → EReal => (Finset.univ : Finset (Fin 128)).fold max negInf f)
    (funext fun k : Fin 128 => (congrArg (foldMax x0) (lift_eq r c k)).trans (foldMax_apply x0 r c k))

theorem avgS_apply (r : Fin 16) (c : Fin 512) : avgS x0 (ix2 r c) = avgOf' (rowOf x0 r) c := by
  show sumS x0 (ix2 r c) * invLanes = _
  rw [sumS_apply]
  rfl

theorem maxS_apply' (r : Fin 16) (c : Fin 512) : maxS x0 (ix2 r c) = maxOf' (rowOf x0 r) c := by
  rw [maxS_apply]
  rfl

theorem hidS_apply (P : FVec Ideal S16x512 .f32) (W : FVec Ideal S32x512 .f32) (p : Fin 512 → EReal) (r : Fin 16)
    (hp : ∀ c, P (ix2 r c) = p c) (h : Fin 32) : hidS P W (ix2 r h) = hidden p (w1Of W) h := by
  show max (matmul D1 none P W (constant S16x32 .f32 0x00000000#32) (ix2 r h)) zeroLit = _
  rw [mm1_apply]
  exact congrArg (max · zeroLit) (Finset.sum_congr rfl fun k _ => by rw [hp k]; rfl)

theorem logitS_apply (r : Fin 16) (c : Fin 512) :
    logitS x0 W1 W1 W2 (ix2 r c) = logit' (rowOf x0 r) (w1Of W1) (w2Of W2) c := by
  unfold logitS
  rw [mm2_apply]
  unfold logit'
  refine Finset.sum_congr rfl fun k _ => ?_
  show (hidS (avgS x0) W1 (ix2 r k) + hidS (maxS x0) W1 (ix2 r k)) * W2 (ix2 c k) = _
  rw [hidS_apply (avgS x0) W1 (avgOf' (rowOf x0 r)) r (avgS_apply x0 r) k,
    hidS_apply (maxS x0) W1 (maxOf' (rowOf x0 r)) r (maxS_apply' x0 r) k]
  rfl

/-- The gate's column [16, 512] → [16, 512, 1] spread over the 256 lanes reads (r, c) at every (r, c, l). -/
theorem spread_apply (g : FVec Ideal S16x512 .f32) (r : Fin 16) (c : Fin 512) (l : Fin 256) :
    broadcastTo S16x512x256 (shapeCast S16x512x1 g shapeCasts_S16x512_S16x512x1) broadcasts_S16x512x1_S16x512x256 (ix3 r c l)
      = g (ix2 r c) := by
  refine (broadcastTo_apply _ _ (ix3 r c l) (ix3 r c (0 : Fin 1)) (fun a => by
    match a with
    | ⟨0, _⟩ => rfl
    | ⟨1, _⟩ => rfl
    | ⟨2, _⟩ => rfl)).trans ?_
  refine shapeCast_apply g _ (ix3 r c (0 : Fin 1)) (ix2 r c) ?_
  rw [Shape.rowMajor_val_two, Shape.rowMajor_val_three]
  show r.val * 512 + c.val = (r.val * 512 + c.val) * 1 + 0
  omega

/-- THE PAYLOAD AT AN INDEX: the element times the logistic function of its batch element's logit of its channel, in the
    arrangement with the lanes folded in two halves. -/
theorem pay_apply (r : Fin 16) (c : Fin 512) (l : Fin 256) :
    k0_pay1 (F := Ideal) x0 W1 W1 W2 x0' (ix3 r c l)
      = x0' (ix3 r c l) * Ideal.logistic (logit' (rowOf x0 r) (w1Of W1) (w2Of W2) c) := by
  rw [k0_pay1_eq]
  show blk x0' (ix3 r c l) * _ = _
  rw [blk_eq, spread_apply]
  show x0' (ix3 r c l) * Ideal.logistic (logitS x0 W1 W1 W2 (ix2 r c)) = _
  rw [logitS_apply]

/-- So, with the law between the two arrangements, the payload of a block is the gated block. -/
theorem pay_eq_gated : k0_pay1 (F := Ideal) x0 W1 W1 W2 x0 = gated (n := 16) x0 W1 W2 := by
  funext i
  obtain ⟨r, c, l, rfl⟩ : ∃ (r : Fin 16) (c : Fin 512) (l : Fin 256), i = ix3 r c l := ⟨i 0, i 1, i 2, eq_ix3 i⟩
  rw [pay_apply, gated_ix3, logit'_eq]
  rfl

end Stages

end Cert.KernelIdeal.Hand

end
-- ==== Proof.KerValue.lean ====
import proofs.«103905_g2000206657440229_pallasbulk_1272_17_alg».proof.Proof.Gen.KernelIdeal.Frame
import proofs.«103905_g2000206657440229_pallasbulk_1272_17_alg».proof.Proof.KerPay
import Idealize.ShloMosaic.Lib.Pipeline.Value
import Idealize.ShloMosaic.Lib.Tactic

/-!
# From the blocks to the whole result

The first program reshapes its input [64, 512, 16, 16] to [64, 512, 256], runs the block computation at four grid
points, and reshapes the [64, 512, 256] result back. Point t works on batch elements 16 t … 16 t + 15 (block t along
the batch axis; whole channel and lane axes) and sees both weight matrices whole. The block computation at a batch
element uses that element's rows only, so what point t writes back is block t of the gated array of the whole reshaped
input. The four blocks cover the 64 batch elements (the point covering element b is b / 16), hence the result array
is the gated array, and the final reshape gives it its two spatial axes back.
-/

noncomputable section

namespace Cert.KernelIdeal.Hand

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-! ## What the region finds -/

/-- The reshaped input, as the region finds it. -/
theorem V_main_v0 (c : Dev nD) :
    (V m c main_v0 : S64x512x256.Idx → EReal)
      = shapeCast S64x512x256 (m ((c : Thread nD τ).loc main_arg0) : S64x512x16x16.Idx → EReal) Gen.shapeCasts_S64x512x16x16_S64x512x256 := by
  show StableHlo.after hostOps0 (fun b => m (c, b)) (Proc.devRef .tc main_v0) = _
  after_results
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the input and the result move along the batch axis with the point,
    the weights stay. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The blocks read off the arrays -/

/-- Batch element r of point t's block is batch element 16 t + r of the array. -/
def rowAt (t : Fin cfg0.N) (r : Fin 16) : Fin 64 :=
  ⟨16 * t.val + r.val, by have := t.isLt; have hN : cfg0.N = 4 := N_0; omega⟩

/-- A block of the gated array along the batch axis is the gated block: an element's gate uses its own rows only. -/
theorem gated_block (X : (⟨3, ![64, 512, 256]⟩ : Shape).Idx → EReal) (x0 : (⟨3, ![16, 512, 256]⟩ : Shape).Idx → EReal)
    (W1 : (⟨2, ![32, 512]⟩ : Shape).Idx → EReal) (W2 : (⟨2, ![512, 32]⟩ : Shape).Idx → EReal) (σ : Fin 16 → Fin 64)
    (hx : ∀ r c l, x0 (ix3 r c l) = X (ix3 (σ r) c l)) (r : Fin 16) (c : Fin 512) (l : Fin 256) :
    gated (n := 16) x0 W1 W2 (ix3 r c l) = gated (n := 64) X W1 W2 (ix3 (σ r) c l) := by
  rw [gated_ix3, gated_ix3, hx]
  exact congrArg (fun xr => X (ix3 (σ r) c l) * gate xr (w1Of W1) (w2Of W2) c)
    (funext fun c' => funext fun l' => hx r c' l')

/-- The input window's block at point t: batch elements 16 t … 16 t + 15 of the reshaped input. -/
theorem iblk0_apply (c : Dev nD) (t : Fin cfg0.N) (r : Fin 16) (ch : Fin 512) (l : Fin 256) :
    (iblk m c 0 t : S16x512x256.Idx → EReal) (ix3 r ch l) = (V m c main_v0 : S64x512x256.Idx → EReal) (ix3 (rowAt t r) ch l) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 16 + 1 * r.val = 16 * t.val + r.val; rw [e0]; omega
  | ⟨1, _⟩ => show win0_0.index t (1 : Fin 3) * 512 + 1 * ch.val = ch.val; rw [e1]; omega
  | ⟨2, _⟩ => show win0_0.index t (2 : Fin 3) * 256 + 1 * l.val = l.val; rw [e2]; omega

/-- The first weight window's block at any point is the whole matrix. -/
theorem iblk1_eq (c : Dev nD) (t : Fin cfg0.N) :
    (iblk m c 1 t : S32x512.Idx → EReal) = (V m c main_arg1 : S32x512.Idx → EReal) := by
  obtain ⟨-, -, -, -, -, -, e0, e1, -⟩ := idx_facts t
  funext y
  unfold iblk
  rw [View.read_apply]
  show V m c main_arg1 _ = V m c main_arg1 y
  refine congrArg (V m c main_arg1) (funext fun a => Fin.ext ?_)
  match a with
  | ⟨0, _⟩ => show win0_1.index t (0 : Fin 2) * 32 + 1 * (y 0).val = (y 0).val; rw [e0]; omega
  | ⟨1, _⟩ => show win0_1.index t (1 : Fin 2) * 512 + 1 * (y 1).val = (y 1).val; rw [e1]; omega

/-- The second weight window's block at any point is the whole matrix. -/
theorem iblk2_eq (c : Dev nD) (t : Fin cfg0.N) :
    (iblk m c 2 t : S512x32.Idx → EReal) = (V m c main_arg2 : S512x32.Idx → EReal) := by
  obtain ⟨-, -, -, -, -, -, -, -, e0, e1⟩ := idx_facts t
  funext y
  unfold iblk
  rw [View.read_apply]
  show V m c main_arg2 _ = V m c main_arg2 y
  refine congrArg (V m c main_arg2) (funext fun a => Fin.ext ?_)
  match a with
  | ⟨0, _⟩ => show win0_2.index t (0 : Fin 2) * 512 + 1 * (y 0).val = (y 0).val; rw [e0]; omega
  | ⟨1, _⟩ => show win0_2.index t (1 : Fin 2) * 32 + 1 * (y 1).val = (y 1).val; rw [e1]; omega

/-- The result window's block at point t sits at batch elements 16 t … 16 t + 15 of the result array. -/
theorem emb3_apply (t : Fin cfg0.N) (r : Fin 16) (ch : Fin 512) (l : Fin 256) :
    (((cfg0.win 3).blk t).view.emb (ix3 r ch l : S16x512x256.Idx) : S64x512x256.Idx) = ix3 (rowAt t r) ch l := by
  obtain ⟨-, -, -, e0, e1, e2, -⟩ := idx_facts t
  refine funext fun a => Fin.ext ?_
  match a with
  | ⟨0, _⟩ => show win0_3.index t (0 : Fin 3) * 16 + 1 * r.val = 16 * t.val + r.val; rw [e0]; omega
  | ⟨1, _⟩ => show win0_3.index t (1 : Fin 3) * 512 + 1 * ch.val = ch.val; rw [e1]; omega
  | ⟨2, _⟩ => show win0_3.index t (2 : Fin 3) * 256 + 1 * l.val = l.val; rw [e2]; omega

/-- The gated array of what the region finds. -/
abbrev G (c : Dev nD) : S64x512x256.Idx → EReal :=
  gated (n := 64) (V m c main_v0 : S64x512x256.Idx → EReal) (V m c main_arg1 : S32x512.Idx → EReal) (V m c main_arg2 : S512x32.Idx → EReal)

/-- WHAT POINT t WRITES BACK is block t of the gated array. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz3]
  simp only [View.ld_unit_zero (S := S16x512x256) hz3, View.ld_unit_zero (S := S32x512) hz2, View.ld_unit_zero (S := S512x32) hz2]
  rw [pay_eq_gated (iblk m c 0 t) (iblk m c 1 t) (iblk m c 2 t)]
  funext j
  obtain ⟨r, ch, l, rfl⟩ : ∃ (r : Fin 16) (ch : Fin 512) (l : Fin 256), j = (ix3 r ch l : S16x512x256.Idx) :=
    ⟨j 0, j 1, j 2, eq_ix3 j⟩
  show gated (n := 16) (iblk m c 0 t : S16x512x256.Idx → EReal) (iblk m c 1 t : S32x512.Idx → EReal)
      (iblk m c 2 t : S512x32.Idx → EReal) (ix3 r ch l)
    = G m c (((cfg0.win 3).blk t).view.emb (ix3 r ch l : S16x512x256.Idx))
  rw [emb3_apply, iblk1_eq, iblk2_eq]
  exact gated_block _ _ _ _ (rowAt t) (iblk0_apply m c t) r ch l

/-! ## The blocks cover the array -/

/-- An index of the result array is in point t's block iff each coordinate is in the block's range on its axis. -/
theorem mem_blk3 (t : Fin cfg0.N) (i : S64x512x256.Idx) :
    i ∈ ((cfg0.win 3).blk t).view.set ↔ ∀ a : Fin 3, win0_3.index t a * S16x512x256.size a ≤ (i a).val
      ∧ (i a).val < win0_3.index t a * S16x512x256.size a + S16x512x256.size a := by
  show i ∈ ((View.whole main_v1).slice (win0_3.rect t)).set ↔ _
  rw [View.set_slice_whole, Rect.mem_set_unit]
  exact Iff.rfl

/-- Batch element b is covered by point b / 16. -/
theorem cover (i : S64x512x256.Idx) :
    ∃ t : Fin cfg0.N, (cfg0.win 3).flush t = true ∧ i ∈ ((cfg0.win 3).blk t).view.set := by
  have hN : cfg0.N = 4 := N_0
  have hi0 : (i 0).val < 64 := (i 0).isLt
  have hi1 : (i 1).val < 512 := (i 1).isLt
  have hi2 : (i 2).val < 256 := (i 2).isLt
  obtain ⟨t, ht⟩ : ∃ t : Fin cfg0.N, t.val = (i 0).val / 16 := ⟨⟨(i 0).val / 16, by omega⟩, rfl⟩
  obtain ⟨-, -, -, e0, e1, e2, -⟩ := idx_facts t
  refine ⟨t, flush0_3 t, ?_⟩
  rw [mem_blk3]
  intro a
  match a with
  | ⟨0, _⟩ =>
    show win0_3.index t (0 : Fin 3) * 16 ≤ (i 0).val ∧ (i 0).val < win0_3.index t (0 : Fin 3) * 16 + 16
    rw [e0, ht]; omega
  | ⟨1, _⟩ =>
    show win0_3.index t (1 : Fin 3) * 512 ≤ (i 1).val ∧ (i 1).val < win0_3.index t (1 : Fin 3) * 512 + 512
    rw [e1]; omega
  | ⟨2, _⟩ =>
    show win0_3.index t (2 : Fin 3) * 256 ≤ (i 2).val ∧ (i 2).val < win0_3.index t (2 : Fin 3) * 256 + 256
    rw [e2]; omega

/-- THE RESULT ARRAY after the region is the gated array of what the region found. -/
theorem final (c : Dev nD) : (dats m 0 c).arrAt 3 cfg0.N = G m c :=
  (dats m 0 c).arrAt_eq_of_cover 3 (G m c) (fun t _ => flushed_eq m c t) cover

/-! ## The reshape after the region -/

theorem tail_eq (c : Dev nD) :
    (Pipeline.afterTail₀ cfgs (dats m) 0 (V0 m) [hostOps1] c main_v2 : S64x512x16x16.Idx → EReal)
      = shapeCast S64x512x16x16 (G m c) Gen.shapeCasts_S64x512x256_S64x512x16x16 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = G m c := (Pipeline.withArrays_arr spec0 launch0.win.arr_inj c _ _ 3).trans (final m c)
  rw [e]
  rfl

/-- The result of the whole program is the specification's, of the three arguments as launched. -/
theorem result_eq (c : Dev nD) :
    (Pipeline.afterTail₀ cfgs (dats m) 0 (V0 m) [hostOps1] c main_v2 : S64x512x16x16.Idx → EReal)
      = Cert.Spec.result Gen.shapeCasts_S64x512x16x16_S64x512x256 Gen.shapeCasts_S64x512x256_S64x512x16x16
          (m ((c.tc : Thread nD τ).loc main_arg0)) (m ((c.tc : Thread nD τ).loc main_arg1)) (m ((c.tc : Thread nD τ).loc main_arg2)) := by
  rw [tail_eq]
  unfold G
  rw [V_main_v0, V_main_arg1, V_main_arg2]
  rfl

/-! ## The run -/

/-- Every weakly fair execution of the first program terminates with its result at the specification's function of the
    three arguments, and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
          = Cert.Spec.result shapeCasts_S64x512x16x16_S64x512x256 shapeCasts_S64x512x256_S64x512x16x16
              (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Hand

end
-- ==== Proof.RefBody.lean ====
import proofs.«103905_g2000206657440229_pallasbulk_1272_17_alg».proof.Proof.Gen.ReferenceIdeal.Frame
import proofs.«103905_g2000206657440229_pallasbulk_1272_17_alg».proof.Proof.Gen.ReferenceIdeal.Skeleton

/-!
# The second program's pipeline: what the body leaves, and the proof data

The second program's grid has six points over 64 batch elements in blocks of twelve, so the last block overhangs the
array by eight elements. A fetch of that block fills the staging buffer's first four rows from the array and leaves the
other eight at contents nothing names; the body computes on all twelve rows; the write-back writes the first four rows
only. What the body leaves in the output's buffer is the body's one store over what it loaded, whatever the input's
buffer held. The proof data names the buffers' contents after the body with the input's overhang rows filled by a fixed
word; the obligation is stated on the rows inside the array only, where that choice is not seen.
-/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses and its one store -/

abbrev r0 : Rect S12x512x256 := Rect.unit (s := S12x512x256) ![0, 0, 0] S12x512x256.size inb_S12x512x256_S12x512x256_0_0_0
abbrev r1 : Rect S512x32 := Rect.unit (s := S512x32) ![0, 0] S512x32.size inb_S512x32_S512x32_0_0
abbrev r2 : Rect S32x512 := Rect.unit (s := S32x512) ![0, 0] S32x512.size inb_S32x512_S32x512_0_0

/-- The output's staging buffer after the body, from what the three input buffers hold: the one whole-block store. -/
def out3 (x0 : Vec F S12x512x256 .f32) (x1 : Vec F S512x32 .f32) (x2 : Vec F S32x512 .f32) : Vec F S12x512x256 .f32 :=
  View.canon [⟨r0, k0_pay1 (View.ld x0 r0) (View.ld x1 r1) (View.ld x2 r2) (View.ld x0 r0)⟩]

/-- The store covers the buffer. -/
theorem cover3 (p0 : Vec F S12x512x256 .f32) (y : S12x512x256.Idx) :
    ∃ pc ∈ ([⟨r0, p0⟩] : List (View.Piece (Elt F) S12x512x256 .f32)), y ∈ pc.1.set :=
  View.cover_of_tiled [⟨r0, p0⟩] S12x512x256.size (by rfl) y

set_option maxHeartbeats 1000000 in
/-- The body on whole staging buffers, the inputs' at ANY contents `x0 x1 x2` and the output's at anything: it ends with
    the inputs' as they were and the output's at `out3 x0 x1 x2`. -/
theorem sound_kernel (c : Dev nD) (E : Set ℕ) (i : grid0.Coords) (arg1 : Memref sig .tc .vmem S12x512x256 .f32) (harg1 : arg1.IsWhole) (arg2 : Memref sig .tc .vmem S512x32 .f32) (harg2 : arg2.IsWhole) (arg3 : Memref sig .tc .vmem S32x512 .f32) (harg3 : arg3.IsWhole) (arg4 : Memref sig .tc .vmem S12x512x256 .f32) (harg4 : arg4.IsWhole)
    (x0 : Vec F S12x512x256 .f32) (x1 : Vec F S512x32 .f32) (x2 : Vec F S32x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__channel_attention_kernel i arg1 harg1 arg2 harg2 arg3 harg3 arg4 harg4) K := by
  simp only [cc0__channel_attention_kernel_eq_skeleton]; unfold cc0__channel_attention_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The word the input's overhang rows are filled with in the proof data (any would do: nothing stated reads it). -/
def pad : S12x512x256.Idx → Elt F .f32 := fun _ => Scalar.ofBits .f32 0#32

/-- The input's staging buffer after the body at point `t`, as the proof data names it: its block's part inside the
    array, the overhang filled with `pad`. -/
def xin (c : Dev nD) (t : Fin cfg0.N) : S12x512x256.Idx → Elt F .f32 :=
  win0_0.fill (grid0.coords t) pad (iblk m c 0 t)

/-- The proof data of the pipeline on core `c`: the arrays as the region finds them; after the body the input's buffer
    at `xin`, the two weight buffers at their blocks, the output's at the body's store over those; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => iblk m c 1 t
    | ⟨2, _⟩ => iblk m c 2 t
    | ⟨3, _⟩ => out3 (xin m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xin m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (xin m c t) (iblk m c 1 t) (iblk m c 2 t) := by dsimp only [dats]

/-! ## What the body finds -/

/-- The input's buffer, fetched at every point: its block on the rows inside the array, `d` past them. -/
theorem before0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]

/-- The two weight buffers hold their (whole) blocks at every point. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The output is never fetched, -/
theorem fetch0_3 : ∀ t : Fin cfg0.N, (cfg0.win 3).fetch t = false :=
  (by decide +kernel : ∀ t : Fin grid0.N, win0_3.fetch t = false)

/-- so its buffer holds contents nothing names when the body runs (it was written back at the previous point). -/
theorem before3 (c : Dev nD) (t : Fin cfg0.N) (d) : (dats m 0 c).before 3 t d = d := by
  unfold Dat.before
  rw [if_neg (by rw [fetch0_3 t]; exact Bool.false_ne_true)]
  by_cases h0 : t.val = 0
  · rw [if_pos h0]
  · rw [if_neg h0]; exact if_pos (flush0_3 _)

end Cert.ReferenceIdeal.Hand

end
-- ==== Proof.RefPay.lean ====
import proofs.«103905_g2000206657440229_pallasbulk_1272_17_alg».proof.Proof.Gen.ReferenceIdeal.Skeleton
import proofs.«103905_g2000206657440229_pallasbulk_1272_17_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The second program's block computation, element by element

The body of the second program works on a block of twelve batch elements. It pools each element's channels over the 256
lanes (the mean: a sum times `2⁻⁸`; and the maximum), stacks the twelve means over the twelve maxima into a 24-row
matrix, applies the two projections to all 24 rows at once (rectifying in between), adds row `r` and row `12 + r` of
the result, applies the logistic function and multiplies the element's lanes by it.

Read at an index `(r, c, l)` the stored value is `x (r, c, l) · gate (row r) c`: row `R` of a matrix product depends
only on row `R` of its left factor, so the stacked rows `r` and `12 + r` carry the mean's and the maximum's hidden
vectors of element `r` alone. In particular the value at row `r` does not depend on any other row of the block.
-/

noncomputable section

namespace Cert.ReferenceIdeal.Pay

open Idealize.ShloMosaic Idealize.ShloMosaic.ValueIdx Cert.ReferenceIdeal Cert.ReferenceIdeal.Gen Cert.Spec

/-! ## The two matrix products at an index -/

/-- The first projection: `[24, 512] · [512, 32]`. -/
abbrev D1 : DotDims S24x512 S512x32 S24x32 := dot_S24x512_S512x32_S24x32_1_0_0_1_n_n
/-- The second projection: `[24, 32] · [32, 512]`. -/
abbrev D2 : DotDims S24x32 S32x512 S24x512 := dot_S24x32_S32x512_S24x512_1_0_0_1_n_n

theorem D1_lhs0 (i : S24x32.Idx) (q : D1.contr.Idx) : (D1.lhsIdx i q 0).val = (i 0).val := by
  unfold DotDims.lhsIdx
  rw [dif_neg (show ¬(0 : Fin S24x512.rank) ∈ D1.lhsBatch by decide), dif_pos (show (0 : Fin S24x512.rank) ∈ D1.lhsNonContracting by decide)]
  rfl
theorem D1_lhs1 (i : S24x32.Idx) (q : D1.contr.Idx) : (D1.lhsIdx i q 1).val = (q ⟨0, by decide⟩).val :=
  D1.lhsIdx_val_of_single rfl i q
theorem D1_rhs0 (i : S24x32.Idx) (q : D1.contr.Idx) : (D1.rhsIdx i q 0).val = (q ⟨0, by decide⟩).val :=
  D1.rhsIdx_val_of_single rfl i q
theorem D1_rhs1 (i : S24x32.Idx) (q : D1.contr.Idx) : (D1.rhsIdx i q 1).val = (i 1).val := by
  unfold DotDims.rhsIdx
  rw [dif_neg (show ¬(1 : Fin S512x32.rank) ∈ D1.rhsBatch by decide), dif_pos (show (1 : Fin S512x32.rank) ∈ D1.rhsNonContracting by decide)]
  rfl

theorem D2_lhs0 (i : S24x512.Idx) (q : D2.contr.Idx) : (D2.lhsIdx i q 0).val = (i 0).val := by
  unfold DotDims.lhsIdx
  rw [dif_neg (show ¬(0 : Fin S24x32.rank) ∈ D2.lhsBatch by decide), dif_pos (show (0 : Fin S24x32.rank) ∈ D2.lhsNonContracting by decide)]
  rfl
theorem D2_lhs1 (i : S24x512.Idx) (q : D2.contr.Idx) : (D2.lhsIdx i q 1).val = (q ⟨0, by decide⟩).val :=
  D2.lhsIdx_val_of_single rfl i q
theorem D2_rhs0 (i : S24x512.Idx) (q : D2.contr.Idx) : (D2.rhsIdx i q 0).val = (q ⟨0, by decide⟩).val :=
  D2.rhsIdx_val_of_single rfl i q
theorem D2_rhs1 (i : S24x512.Idx) (q : D2.contr.Idx) : (D2.rhsIdx i q 1).val = (i 1).val := by
  unfold DotDims.rhsIdx
  rw [dif_neg (show ¬(1 : Fin S32x512.rank) ∈ D2.rhsBatch by decide), dif_pos (show (1 : Fin S32x512.rank) ∈ D2.rhsNonContracting by decide)]
  rfl

/-- Element `(R, h)` of the first product into a zero accumulator is `∑ k, L (R, k) · W (k, h)`. -/
theorem mm1_apply (L : FVec Ideal S24x512 .f32) (W : FVec Ideal S512x32 .f32) (R : Fin 24) (h : Fin 32) :
    matmul D1 none L W (constant S24x32 .f32 0x00000000#32) (ix2 R h) = ∑ k : Fin 512, L (ix2 R k) * W (ix2 k h) := by
  simp only [matmul]
  rw [Ideal.matmul_constant_zero_apply, ← Equiv.sum_comp (contrEquiv1 D1 512 rfl rfl).symm]
  refine Finset.sum_congr rfl fun k _ => ?_
  have hk := contrEquiv1_symm_val D1 512 rfl rfl k
  have el : D1.lhsIdx (ix2 R h) ((contrEquiv1 D1 512 rfl rfl).symm k) = ix2 R k := funext fun a => Fin.ext (by
    match a with
    | ⟨0, _⟩ => exact D1_lhs0 _ _
    | ⟨1, _⟩ => exact (D1_lhs1 _ _).trans hk)
  have er : D1.rhsIdx (ix2 R h) ((contrEquiv1 D1 512 rfl rfl).symm k) = ix2 k h := funext fun a => Fin.ext (by
    match a with
    | ⟨0, _⟩ => exact (D1_rhs0 _ _).trans hk
    | ⟨1, _⟩ => exact D1_rhs1 _ _)
  rw [el, er]

/-- Element `(R, c)` of the second product into a zero accumulator is `∑ k, H (R, k) · W (k, c)`. -/
theorem mm2_apply (H : FVec Ideal S24x32 .f32) (W : FVec Ideal S32x512 .f32) (R : Fin 24) (c : Fin 512) :
    matmul D2 none H W (constant S24x512 .f32 0x00000000#32) (ix2 R c) = ∑ k : Fin 32, H (ix2 R k) * W (ix2 k c) := by
  simp only [matmul]
  rw [Ideal.matmul_constant_zero_apply, ← Equiv.sum_comp (contrEquiv1 D2 32 rfl rfl).symm]
  refine Finset.sum_congr rfl fun k _ => ?_
  have hk := contrEquiv1_symm_val D2 32 rfl rfl k
  have el : D2.lhsIdx (ix2 R c) ((contrEquiv1 D2 32 rfl rfl).symm k) = ix2 R k := funext fun a => Fin.ext (by
    match a with
    | ⟨0, _⟩ => exact D2_lhs0 _ _
    | ⟨1, _⟩ => exact (D2_lhs1 _ _).trans hk)
  have er : D2.rhsIdx (ix2 R c) ((contrEquiv1 D2 32 rfl rfl).symm k) = ix2 k c := funext fun a => Fin.ext (by
    match a with
    | ⟨0, _⟩ => exact (D2_rhs0 _ _).trans hk
    | ⟨1, _⟩ => exact D2_rhs1 _ _)
  rw [el, er]

/-! ## The body's stages -/

variable (v0 v20 : FVec Ideal S12x512x256 .f32) (v7 : FVec Ideal S512x32 .f32) (v12 : FVec Ideal S32x512 .f32)

/-- Each element's channel sums over the lanes. -/
def sumS : FVec Ideal S12x512 .f32 :=
  multiReduction .add [2] S12x512 (shapeCast S12x512x256 v0 shapeCasts_S12x512x256_S12x512x256) 0x00000000#32 reduces_S12x512x256_S12x512 (.inl rfl) rfl
/-- Each element's channel means. -/
def avgS : FVec Ideal S12x512 .f32 := mulf (sumS v0) (broadcast S12x512 (Scalar.ofBits .f32 0x3B800000#32))
/-- Each element's channel maxima. -/
def maxS : FVec Ideal S12x512 .f32 :=
  multiReduction .maximumf [2] S12x512 (shapeCast S12x512x256 v0 shapeCasts_S12x512x256_S12x512x256) 0xFF800000#32 reduces_S12x512x256_S12x512 (.inl rfl) rfl
/-- The twelve means stacked over the twelve maxima. -/
def poolS : FVec Ideal S24x512 .f32 :=
  concatenate S24x512 0 [⟨S12x512, avgS v0⟩, ⟨S12x512, maxS v0⟩] concatenates_S12x512_S12x512_S24x512_d0
/-- The rectified first projection of all 24 rows. -/
def hidS : FVec Ideal S24x32 .f32 :=
  maximumf (matmul D1 none (poolS v0) (shapeCast S512x32 v7 shapeCasts_S512x32_S512x32) (constant S24x32 .f32 0x00000000#32))
    (broadcast S24x32 (Scalar.ofBits .f32 0x00000000#32))
/-- The second projection of all 24 rows. -/
def outS : FVec Ideal S24x512 .f32 :=
  matmul D2 none (hidS v0 v7) (shapeCast S32x512 v12 shapeCasts_S32x512_S32x512) (constant S24x512 .f32 0x00000000#32)
/-- The gates: the logistic function of row `r` plus row `12 + r`. -/
def gateS : FVec Ideal S12x512 .f32 :=
  logistic (addf (extractStridedSlice S12x512 ![0, 0] (outS v0 v7 v12) slices_S24x512_o0_0_S12x512)
    (extractStridedSlice S12x512 ![12, 0] (outS v0 v7 v12) slices_S24x512_o12_0_S12x512))
/-- The stored block. -/
def pay : FVec Ideal S12x512x256 .f32 :=
  mulf (shapeCast S12x512x256 v20 shapeCasts_S12x512x256_S12x512x256)
    (broadcastTo S12x512x256 (shapeCast S12x512x1 (gateS v0 v7 v12) shapeCasts_S12x512_S12x512x1) broadcasts_S12x512x1_S12x512x256)

/-- The printed payload is these stages composed. -/
theorem k0_pay1_eq : k0_pay1 (F := Ideal) v0 v7 v12 v20 = pay v0 v20 v7 v12 := rfl

/-! ## The stages at an index -/

/-- The lane axis put back into an index of the pooled matrix. -/
theorem lift_eq (r : Fin 12) (c : Fin 512) (k : Fin (S12x512x256.size 2)) :
    reduces_S12x512x256_S12x512.lift (ix2 r c) k = ix3 r c k := funext fun a => Fin.ext (by
  match a with
  | ⟨0, _⟩ => rfl
  | ⟨1, _⟩ => rfl
  | ⟨2, _⟩ => rfl)

theorem sumS_apply (r : Fin 12) (c : Fin 512) : sumS v0 (ix2 r c) = ∑ l : Fin 256, v0 (ix3 r c l) := by
  unfold sumS
  refine (Ideal.multiReduction_add_single _ 0x00000000#32 reduces_S12x512x256_S12x512 (.inl rfl) rfl (ix2 r c)).trans ?_
  refine Finset.sum_congr rfl fun k _ => ?_
  rw [shapeCast_self, lift_eq]
  rfl

/-- A maximum over the lanes at `(r, c)` is the fold of `max` from the accumulator's value over the lane coordinate. -/
theorem maxred_apply (src : FVec Ideal S12x512x256 .f32) (r : Fin 12) (c : Fin 512) :
    multiReduction (F := Ideal) .maximumf [2] S12x512 src 0xFF800000#32 reduces_S12x512x256_S12x512 (.inl rfl) rfl (ix2 r c)
      = (Finset.univ : Finset (Fin (S12x512x256.size 2))).fold max (FloatOps.ofBits (F := Ideal) .f32 0xFF800000#32)
          (src ∘ reduces_S12x512x256_S12x512.lift (ix2 r c)) :=
  Ideal.multiReduction_maximumf_single (φ := .f32) (s := S12x512x256) (t := S12x512) (a := 2) src 0xFF800000#32
    reduces_S12x512x256_S12x512 (.inl rfl) rfl (ix2 r c)

theorem maxS_apply (r : Fin 12) (c : Fin 512) :
    maxS v0 (ix2 r c) = (Finset.univ : Finset (Fin 256)).fold max negInf (fun l => v0 (ix3 r c l)) := by
  unfold maxS
  refine (maxred_apply _ r c).trans ?_
  have hf : ((shapeCast S12x512x256 v0 shapeCasts_S12x512x256_S12x512x256) ∘ reduces_S12x512x256_S12x512.lift (ix2 r c))
      = fun l : Fin (S12x512x256.size 2) => v0 (ix3 r c l) := funext fun k => by
    show shapeCast S12x512x256 v0 _ (reduces_S12x512x256_S12x512.lift (ix2 r c) k) = v0 (ix3 r c k)
    rw [shapeCast_self, lift_eq]
    rfl
  rw [hf]
  rfl

/-- Stacked row `r` is element `r`'s means. -/
theorem poolS_lo (r : Fin 12) (c : Fin 512) : poolS v0 (ix2 (⟨r.val, by omega⟩ : Fin 24) c) = avgOf (rowOf v0 r) c := by
  unfold poolS
  refine (concatenate_pair_apply_left (0 : Fin S24x512.rank) (avgS v0) (maxS v0) concatenates_S12x512_S12x512_S24x512_d0 _ rfl (ix2 r c) (fun b => by
    match b with
    | ⟨0, _⟩ => rfl
    | ⟨1, _⟩ => rfl)).trans ?_
  show sumS v0 (ix2 r c) * _ = _
  rw [sumS_apply]; rfl

/-- Stacked row `12 + r` is element `r`'s maxima. -/
theorem poolS_hi (r : Fin 12) (c : Fin 512) : poolS v0 (ix2 (⟨12 + r.val, by omega⟩ : Fin 24) c) = maxOf (rowOf v0 r) c := by
  unfold poolS
  refine (concatenate_pair_apply_right (0 : Fin S24x512.rank) (avgS v0) (maxS v0) concatenates_S12x512_S12x512_S24x512_d0 _ rfl rfl (ix2 r c) (fun b hb => by
    match b, hb with
    | ⟨0, _⟩, hb => exact absurd rfl hb
    | ⟨1, _⟩, _ => rfl) (by show r.val + 12 = 12 + r.val; omega)).trans ?_
  exact maxS_apply v0 r c

theorem hidS_apply (R : Fin 24) (h : Fin 32) :
    hidS v0 v7 (ix2 R h) = max (∑ k : Fin 512, poolS v0 (ix2 R k) * v7 (ix2 k h)) zeroLit := by
  unfold hidS
  show max (matmul D1 none (poolS v0) (shapeCast S512x32 v7 _) (constant S24x32 .f32 0x00000000#32) (ix2 R h)) _ = _
  rw [mm1_apply, shapeCast_self]; rfl

theorem outS_apply (R : Fin 24) (c : Fin 512) :
    outS v0 v7 v12 (ix2 R c) = ∑ k : Fin 32, hidS v0 v7 (ix2 R k) * v12 (ix2 k c) := by
  unfold outS
  rw [mm2_apply, shapeCast_self]

theorem gateS_apply (r : Fin 12) (c : Fin 512) :
    gateS v0 v7 v12 (ix2 r c)
      = Ideal.logistic (outS v0 v7 v12 (ix2 (⟨r.val, by omega⟩ : Fin 24) c) + outS v0 v7 v12 (ix2 (⟨12 + r.val, by omega⟩ : Fin 24) c)) := by
  unfold gateS
  show Ideal.logistic (extractStridedSlice S12x512 ![0, 0] (outS v0 v7 v12) _ (ix2 r c)
    + extractStridedSlice S12x512 ![12, 0] (outS v0 v7 v12) _ (ix2 r c)) = _
  rw [slice2_axis0_apply 0 (outS v0 v7 v12) _ r c (⟨r.val, by omega⟩ : Fin 24) (by show r.val = 0 + r.val; omega),
    slice2_axis0_apply 12 (outS v0 v7 v12) _ r c (⟨12 + r.val, by omega⟩ : Fin 24) rfl]

theorem pay_apply (r : Fin 12) (c : Fin 512) (l : Fin 256) :
    pay v0 v20 v7 v12 (ix3 r c l) = v20 (ix3 r c l) * gateS v0 v7 v12 (ix2 r c) := by
  unfold pay
  show shapeCast S12x512x256 v20 _ (ix3 r c l)
    * broadcastTo S12x512x256 (shapeCast S12x512x1 (gateS v0 v7 v12) shapeCasts_S12x512_S12x512x1) broadcasts_S12x512x1_S12x512x256 (ix3 r c l) = _
  rw [shapeCast_self, broadcastTo_apply _ _ (ix3 r c l) (ix3 r c (0 : Fin 1)) (fun a => by
      match a with
      | ⟨0, _⟩ => rfl
      | ⟨1, _⟩ => rfl
      | ⟨2, _⟩ => rfl),
    shapeCast_apply (gateS v0 v7 v12) _ (ix3 r c (0 : Fin 1)) (ix2 r c) (by
      rw [Shape.rowMajor_val_two, Shape.rowMajor_val_three]; simp)]

/-- THE BLOCK, ELEMENT BY ELEMENT: the stored value at `(r, c, l)` is the reloaded element times the gate of channel
    `c` computed from row `r` alone, with the first weights read `[channel, hidden]` and the second `[hidden, channel]`. -/
theorem pay_gate (r : Fin 12) (c : Fin 512) (l : Fin 256) :
    pay v0 v20 v7 v12 (ix3 r c l)
      = v20 (ix3 r c l) * gate (rowOf v0 r) (fun h c' => v7 (ix2 c' h)) (fun c' h => v12 (ix2 h c')) c := by
  rw [pay_apply, gateS_apply, outS_apply, outS_apply]
  unfold gate logit Spec.hidden
  simp only [hidS_apply, poolS_lo, poolS_hi]

end Cert.ReferenceIdeal.Pay

end
-- ==== Proof.RefOblig.lean ====
import proofs.«103905_g2000206657440229_pallasbulk_1272_17_alg».proof.Proof.RefBody
import proofs.«103905_g2000206657440229_pallasbulk_1272_17_alg».proof.Proof.RefPay

/-!
# The second program's body obligation and run

The rows of the output's staging buffer that are written back (those inside the array) hold values that depend only on
the same rows of the input's staging buffer: the stored value at `(r, c, l)` is `x (r, c, l) · gate (row r) c`. So
whatever the fetch left past the array's end, the written-back part is the one the proof data names, which is all the
obligation of a window with a clipped last block asks.
-/

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The stored block, element by element -/

theorem hz3 : (![0, 0, 0] : Fin 3 → Nat) = fun _ => 0 := funext fun a => by fin_cases a <;> rfl
theorem hz2 : (![0, 0] : Fin 2 → Nat) = fun _ => 0 := funext fun a => by fin_cases a <;> rfl

/-- The one whole-block store leaves its payload, the loads through whole rectangles read the buffers. -/
theorem out3_eq (x0 : FVec Ideal S12x512x256 .f32) (x1 : FVec Ideal S512x32 .f32) (x2 : FVec Ideal S32x512 .f32) :
    out3 (F := Ideal) x0 x1 x2 = Pay.pay x0 x0 x1 x2 := by
  unfold out3
  rw [View.canon_unit_zero hz3]
  simp only [View.ld_unit_zero (S := S12x512x256) hz3, View.ld_unit_zero (S := S512x32) hz2, View.ld_unit_zero (S := S32x512) hz2]
  exact Pay.k0_pay1_eq _ _ _ _

theorem out3_apply (x0 : FVec Ideal S12x512x256 .f32) (x1 : FVec Ideal S512x32 .f32) (x2 : FVec Ideal S32x512 .f32)
    (r : Fin 12) (c : Fin 512) (l : Fin 256) :
    out3 (F := Ideal) x0 x1 x2 (ix3 r c l)
      = x0 (ix3 r c l) * gate (rowOf x0 r) (fun h c' => x1 (ix2 c' h)) (fun c' h => x2 (ix2 h c')) c := by
  rw [out3_eq]; exact Pay.pay_gate x0 x0 x1 x2 r c l

/-- Row `r` of the stored block depends on the input's buffer through its row `r` only. -/
theorem out3_congr_row (x0 x0' : FVec Ideal S12x512x256 .f32) (x1 : FVec Ideal S512x32 .f32) (x2 : FVec Ideal S32x512 .f32)
    (r : Fin 12) (h : ∀ (c : Fin 512) (l : Fin 256), x0 (ix3 r c l) = x0' (ix3 r c l)) (c : Fin 512) (l : Fin 256) :
    out3 (F := Ideal) x0 x1 x2 (ix3 r c l) = out3 (F := Ideal) x0' x1 x2 (ix3 r c l) := by
  have hrow : rowOf x0 r = rowOf x0' r := funext fun c' => funext fun l' => h c' l'
  rw [out3_apply, out3_apply, h c l, hrow]

/-! ## The clipped blocks -/

/-- Only the batch axis is ever cut, and the output's block is cut where the input's is. -/
theorem xsize_facts : ∀ t : Fin cfg0.N, win0_0.xsize (grid0.coords t) (1 : Fin 3) = 512 ∧ win0_0.xsize (grid0.coords t) (2 : Fin 3) = 256
    ∧ win0_3.xsize (grid0.coords t) (0 : Fin 3) = win0_0.xsize (grid0.coords t) (0 : Fin 3) :=
  (by decide +kernel : ∀ t : Fin grid0.N, _)

/-- On a row inside the array the fetched buffer holds the block, whatever filled the rest. -/
theorem fill_row (t : Fin cfg0.N) (d d' : S12x512x256.Idx → Elt Ideal .f32)
    (g : (win0_0.xblock (grid0.coords t)).Idx → Elt Ideal .f32) (y : S12x512x256.Idx)
    (hy : (y 0).val < win0_0.xsize (grid0.coords t) (0 : Fin 3)) :
    win0_0.fill (grid0.coords t) d g y = win0_0.fill (grid0.coords t) d' g y := by
  obtain ⟨e1, e2, -⟩ := xsize_facts t
  have hm : win0_0.moved (grid0.coords t) y = true := (win0_0.moved_iff _ _).mpr fun a => by
    match a with
    | ⟨0, _⟩ => exact hy
    | ⟨1, _⟩ => show (y 1).val < win0_0.xsize (grid0.coords t) (1 : Fin 3); rw [e1]; exact (y 1).isLt
    | ⟨2, _⟩ => show (y 2).val < win0_0.xsize (grid0.coords t) (2 : Fin 3); rw [e2]; exact (y 2).isLt
  unfold Window.fill
  rw [dif_pos hm, dif_pos hm]

/-- So on such a row the stored block does not depend on what filled the input's overhang. -/
theorem out3_fill_indep (t : Fin cfg0.N) (d d' : S12x512x256.Idx → Elt Ideal .f32)
    (g : (win0_0.xblock (grid0.coords t)).Idx → Elt Ideal .f32) (x1 : FVec Ideal S512x32 .f32) (x2 : FVec Ideal S32x512 .f32)
    (y : S12x512x256.Idx) (hy : (y 0).val < win0_0.xsize (grid0.coords t) (0 : Fin 3)) :
    out3 (F := Ideal) (win0_0.fill (grid0.coords t) d g) x1 x2 y = out3 (F := Ideal) (win0_0.fill (grid0.coords t) d' g) x1 x2 y := by
  rw [eq_ix3 y]
  exact out3_congr_row _ _ x1 x2 (y 0) (fun c' l' => fill_row t d d' g (ix3 (y 0) c' l') hy) (y 1) (y 2)

/-- The written-back part of the stored block, whatever filled the input's overhang. -/
theorem cut_out3 (t : Fin cfg0.N) (d d' : S12x512x256.Idx → Elt Ideal .f32)
    (g : (win0_0.xblock (grid0.coords t)).Idx → Elt Ideal .f32) (x1 : FVec Ideal S512x32 .f32) (x2 : FVec Ideal S32x512 .f32) :
    win0_3.cut (grid0.coords t) (out3 (F := Ideal) (win0_0.fill (grid0.coords t) d g) x1 x2)
      = win0_3.cut (grid0.coords t) (out3 (F := Ideal) (win0_0.fill (grid0.coords t) d' g) x1 x2) := by
  funext j
  obtain ⟨-, -, e3⟩ := xsize_facts t
  exact out3_fill_indep t d d' g x1 x2 (win0_3.xinj (grid0.coords t) j) (by
    show (j 0).val < win0_0.xsize (grid0.coords t) (0 : Fin 3)
    rw [← e3]; exact (j 0).isLt)

/-! ## The body obligation, at a generic point -/

variable (m : (ℓ : Loc nD τ sig) → Buf (Elt Ideal) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns: the two weight buffers at their blocks; the input's and the output's buffers at what the proof data
    names ON THE ROWS INSIDE THE ARRAY, anything past them. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point: it is run on the input's buffer as fetched (the block, and anything past the array's end) and
    leaves the output's at its store over that; on the rows inside the array that is the store over the proof data's
    filled block (`cut_out3`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (xin m c t) = iblk m c 0 t from win0_0.cut_fill _ _ _]
    iexact H0
  isplitl [H1]; · iexact H1
  isplitl [H2]; · iexact H2
  iexists out3 (win0_0.fill (grid0.coords t) d0 (iblk m c 0 t)) (iblk m c 1 t) (iblk m c 2 t)
  unfold xin
  rw [win0_3.fill_congr_cut (grid0.coords t) (cut_out3 t d0 pad (iblk m c 0 t) (iblk m c 1 t) (iblk m c 2 t))]
  iexact H3

/-- The library's body obligation (in its form for windows with clipped blocks), at every point. -/
theorem body_obligation (c : Dev nD) : BodyObligationLoose (dats (F := Ideal) m 0 c) (defs₀ (F := Ideal)) Variants.none () Set.univ := fun t => by
  rw [bigSep_W0, bigSep_W0]
  exact sound_body m c t

/-! ## The run and the frame -/

set_option backward.isDefEq.respectTransparency.types false in
/-- Every weakly fair execution of the second program terminates, with every array of its pipeline at what the proof
    data computes and every other buffer as the lines after the region leave it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The second program's frame: it runs, and its argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.Hand

end
-- ==== Proof.RefArr.lean ====
import proofs.«103905_g2000206657440229_pallasbulk_1272_17_alg».proof.Proof.RefBody
import proofs.«103905_g2000206657440229_pallasbulk_1272_17_alg».proof.Proof.Spec
import Idealize.ShloMosaic.Lib.StableHlo.Run
import Idealize.ShloMosaic.Lib.ValueIdx
import Idealize.ShloMosaic.Lib.ValueLayout
import Idealize.ShloMosaic.Lib.Pipeline.Value

/-!
# The second program's arrays and blocks as the region finds them

Before the region the host flattens the input's two spatial axes into 256 lanes and transposes both weight matrices.
The weight windows' one block is the whole (transposed) matrix; block `t` of the input holds batch elements
`12 t, 12 t + 1, …` as far as the array goes.
-/

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The host operations before the region -/

/-- The input with its spatial axes flattened. -/
theorem V_v0 (c : Dev nD) : (V m c main_v0 : S64x512x256.Idx → EReal)
    = shapeCast S64x512x256 (m ((c : Thread nD τ).loc main_arg0)) shapeCasts_S64x512x16x16_S64x512x256 := by
  show StableHlo.after hostOps0 (fun b => m (c, b)) (Proc.devRef .tc main_v0) = _
  after_results; rfl

/-- The first weights transposed to `[channel, hidden]`. -/
theorem V_v1 (c : Dev nD) : (V m c main_v1 : S512x32.Idx → EReal)
    = transpose S512x32 [1, 0] (m ((c : Thread nD τ).loc main_arg1)) transposes_S32x512_S512x32_1_0 := by
  show StableHlo.after hostOps0 (fun b => m (c, b)) (Proc.devRef .tc main_v1) = _
  after_results

/-- The second weights transposed to `[hidden, channel]`. -/
theorem V_v2 (c : Dev nD) : (V m c main_v2 : S32x512.Idx → EReal)
    = transpose S32x512 [1, 0] (m ((c : Thread nD τ).loc main_arg2)) transposes_S512x32_S32x512_1_0 := by
  show StableHlo.after hostOps0 (fun b => m (c, b)) (Proc.devRef .tc main_v2) = _
  after_results

/-! ## The index maps over the grid -/

theorem idx_facts : ∀ t : Fin cfg0.N,
    win0_1.index t (0 : Fin 2) = 0 ∧ win0_1.index t (1 : Fin 2) = 0
    ∧ win0_2.index t (0 : Fin 2) = 0 ∧ win0_2.index t (1 : Fin 2) = 0
    ∧ win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ t.val * 12 + win0_0.xsize (grid0.coords t) (0 : Fin 3) ≤ 64
    ∧ win0_0.xsize (grid0.coords t) (1 : Fin 3) = 512 ∧ win0_0.xsize (grid0.coords t) (2 : Fin 3) = 256
    ∧ win0_3.xsize (grid0.coords t) (0 : Fin 3) = win0_0.xsize (grid0.coords t) (0 : Fin 3)
    ∧ win0_3.xsize (grid0.coords t) (1 : Fin 3) = 512 ∧ win0_3.xsize (grid0.coords t) (2 : Fin 3) = 256
    ∧ (t.val + 1) * 12 ≤ t.val * 12 + win0_0.xsize (grid0.coords t) (0 : Fin 3) + 8
    ∧ (t.val < 5 → win0_0.xsize (grid0.coords t) (0 : Fin 3) = 12) ∧ (t.val = 5 → win0_0.xsize (grid0.coords t) (0 : Fin 3) = 4) :=
  (by decide +kernel : ∀ t : Fin grid0.N, _)

/-! ## The blocks -/

/-- The first weight window's block is the whole transposed matrix. -/
theorem iblk1_apply (c : Dev nD) (t : Fin cfg0.N) (y : S512x32.Idx) : iblk m c 1 t y = V m c main_v1 y := by
  obtain ⟨e0, e1, -⟩ := idx_facts t
  unfold iblk
  show V m c main_v1 (((cfg0.win 1).blk t).view.emb y) = V m c main_v1 y
  refine congrArg (V m c main_v1) (funext fun a => Fin.ext ?_)
  match a with
  | ⟨0, _⟩ => show win0_1.index t (0 : Fin 2) * 512 + 1 * (y 0).val = (y 0).val; rw [e0]; omega
  | ⟨1, _⟩ => show win0_1.index t (1 : Fin 2) * 32 + 1 * (y 1).val = (y 1).val; rw [e1]; omega

/-- The second weight window's block is the whole transposed matrix. -/
theorem iblk2_apply (c : Dev nD) (t : Fin cfg0.N) (y : S32x512.Idx) : iblk m c 2 t y = V m c main_v2 y := by
  obtain ⟨-, -, e0, e1, -⟩ := idx_facts t
  unfold iblk
  show V m c main_v2 (((cfg0.win 2).blk t).view.emb y) = V m c main_v2 y
  refine congrArg (V m c main_v2) (funext fun a => Fin.ext ?_)
  match a with
  | ⟨0, _⟩ => show win0_2.index t (0 : Fin 2) * 32 + 1 * (y 0).val = (y 0).val; rw [e0]; omega
  | ⟨1, _⟩ => show win0_2.index t (1 : Fin 2) * 512 + 1 * (y 1).val = (y 1).val; rw [e1]; omega

/-- The weights as the body reads them are the arguments' weights in the specification's layout. -/
theorem w1_read (c : Dev nD) (t : Fin cfg0.N) :
    (fun (h : Fin 32) (c' : Fin 512) => iblk m c 1 t (ix2 c' h)) = w1Of (m ((c : Thread nD τ).loc main_arg1)) := by
  funext h c'
  rw [iblk1_apply, V_v1]
  exact transpose_ix2_apply _ _ c' h

theorem w2_read (c : Dev nD) (t : Fin cfg0.N) :
    (fun (c' : Fin 512) (h : Fin 32) => iblk m c 2 t (ix2 h c')) = w2Of (m ((c : Thread nD τ).loc main_arg2)) := by
  funext c' h
  rw [iblk2_apply, V_v2]
  exact transpose_ix2_apply _ _ h c'

/-- On a row inside the array, the input's buffer (as the proof data names it) holds the flattened input's batch
    element `12 t + row`. -/
theorem xin_apply (c : Dev nD) (t : Fin cfg0.N) (y : S12x512x256.Idx)
    (hy : (y 0).val < win0_0.xsize (grid0.coords t) (0 : Fin 3)) (b : Fin 64) (hb : b.val = t.val * 12 + (y 0).val) :
    xin m c t y = V m c main_v0 (ix3 b (y 1) (y 2)) := by
  obtain ⟨-, -, -, -, e0, e1, e2, -, -, -, -, s1, s2, -⟩ := idx_facts t
  have hm : win0_0.moved (grid0.coords t) y = true := (win0_0.moved_iff _ _).mpr fun a => by
    match a with
    | ⟨0, _⟩ => exact hy
    | ⟨1, _⟩ => show (y 1).val < win0_0.xsize (grid0.coords t) (1 : Fin 3); rw [s1]; exact (y 1).isLt
    | ⟨2, _⟩ => show (y 2).val < win0_0.xsize (grid0.coords t) (2 : Fin 3); rw [s2]; exact (y 2).isLt
  unfold xin Window.fill
  rw [dif_pos hm]
  unfold iblk
  show V m c main_v0 (((cfg0.win 0).blk t).view.emb _) = V m c main_v0 (ix3 b (y 1) (y 2))
  refine congrArg (V m c main_v0) (funext fun a => Fin.ext ?_)
  match a with
  | ⟨0, _⟩ => show win0_0.index t (0 : Fin 3) * 12 + 1 * (y 0).val = b.val; rw [e0, hb]; omega
  | ⟨1, _⟩ => show win0_0.index t (1 : Fin 3) * 512 + 1 * (y 1).val = (y 1).val; rw [e1]; omega
  | ⟨2, _⟩ => show win0_0.index t (2 : Fin 3) * 256 + 1 * (y 2).val = (y 2).val; rw [e2]; omega

end Cert.ReferenceIdeal.Hand

end
-- ==== Proof.RefValue.lean ====
import proofs.«103905_g2000206657440229_pallasbulk_1272_17_alg».proof.Proof.RefOblig
import proofs.«103905_g2000206657440229_pallasbulk_1272_17_alg».proof.Proof.RefArr

/-!
# The second program's result

Point `t` writes back rows `12 t …` of the gated flattened input, as many as lie inside the array (twelve, and four at
the last point); the six blocks cover the 64 batch elements; the host then gives the array its spatial axes back.
-/

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The gated flattened input, as a function of the arrays the region finds. -/
def G (c : Dev nD) : S64x512x256.Idx → EReal :=
  gated (n := 64) (V m c main_v0) (m ((c : Thread nD τ).loc main_arg1)) (m ((c : Thread nD τ).loc main_arg2))

/-- Row `r` of what the body leaves at point `t`, if inside the array, is batch element `12 t + r` of `G`. -/
theorem flushed_point (c : Dev nD) (t : Fin cfg0.N) (r : Fin 12) (ch : Fin 512) (l : Fin 256)
    (hy : r.val < win0_0.xsize (grid0.coords t) (0 : Fin 3)) (b : Fin 64) (hb : b.val = t.val * 12 + r.val) :
    out3 (F := Ideal) (xin m c t) (iblk m c 1 t) (iblk m c 2 t) (ix3 r ch l) = G m c (ix3 b ch l) := by
  have hrow : rowOf (xin m c t) r = rowOf (V m c main_v0) b := funext fun c' => funext fun l' =>
    xin_apply m c t (ix3 r c' l') hy b hb
  refine (out3_apply _ _ _ r ch l).trans ?_
  rw [w1_read m c t, w2_read m c t, hrow, xin_apply m c t (ix3 r ch l) hy b hb]
  rfl

/-- WHAT POINT `t` WRITES BACK is block `t` of `G`, cut at the array's end. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after3]
  obtain ⟨-, -, -, -, -, -, -, e0, e1, e2, hle, -, -, sx, sx1, sx2, hge, -, -⟩ := idx_facts t
  funext j
  have hj0 : (j 0).val < win0_0.xsize (grid0.coords t) (0 : Fin 3) := by rw [← sx]; exact (j 0).isLt
  have hj1 : (j 1).val < 512 := by rw [← sx1]; exact (j 1).isLt
  have hj2 : (j 2).val < 256 := by rw [← sx2]; exact (j 2).isLt
  have hN : t.val < 6 := by have h := t.isLt; have e : cfg0.N = 6 := N_0; omega
  have hx12 : win0_0.xsize (grid0.coords t) (0 : Fin 3) ≤ 12 := win0_0.xsize_le _ _
  have ey : win0_3.xinj (grid0.coords t) j = ix3 (⟨(j 0).val, by omega⟩ : Fin 12) (⟨(j 1).val, hj1⟩ : Fin 512) (⟨(j 2).val, hj2⟩ : Fin 256) :=
    funext fun a => Fin.ext (by
      match a with
      | ⟨0, _⟩ => rfl
      | ⟨1, _⟩ => rfl
      | ⟨2, _⟩ => rfl)
  have ee : ((cfg0.win 3).blk t).view.emb j
      = ix3 (⟨t.val * 12 + (j 0).val, by omega⟩ : Fin 64) (⟨(j 1).val, hj1⟩ : Fin 512) (⟨(j 2).val, hj2⟩ : Fin 256) :=
    funext fun a => Fin.ext (by
      match a with
      | ⟨0, _⟩ => show win0_3.index t (0 : Fin 3) * 12 + 1 * (j 0).val = t.val * 12 + (j 0).val; rw [e0]; omega
      | ⟨1, _⟩ => show win0_3.index t (1 : Fin 3) * 512 + 1 * (j 1).val = (j 1).val; rw [e1]; omega
      | ⟨2, _⟩ => show win0_3.index t (2 : Fin 3) * 256 + 1 * (j 2).val = (j 2).val; rw [e2]; omega)
  show out3 (xin m c t) (iblk m c 1 t) (iblk m c 2 t) (win0_3.xinj (grid0.coords t) j) = G m c (((cfg0.win 3).blk t).view.emb j)
  rw [ey, ee]
  exact flushed_point m c t _ _ _ hj0 _ rfl

/-- An index of the array is in point `t`'s block iff each coordinate is in the block's (cut) range on its axis. -/
theorem mem_blk (t : Fin cfg0.N) (i : S64x512x256.Idx) :
    i ∈ ((cfg0.win 3).blk t).view.set ↔ ∀ a : Fin 3, win0_3.index t a * S12x512x256.size a ≤ (i a).val
      ∧ (i a).val < win0_3.index t a * S12x512x256.size a + win0_3.xsize (grid0.coords t) a := by
  show i ∈ ((View.whole main_v3).slice (win0_3.rect t)).set ↔ _
  rw [View.set_slice_whole, Rect.mem_set_unit]
  exact Iff.rfl

/-- Batch element `b` is covered by point `b / 12`. -/
theorem cover (i : S64x512x256.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 256 := (i 2).isLt
  have hN : cfg0.N = 6 := N_0
  have ht : (i 0).val / 12 < cfg0.N := by rw [hN]; omega
  refine ⟨⟨(i 0).val / 12, ht⟩, flush0_3 _, (mem_blk _ i).mpr fun a => ?_⟩
  obtain ⟨-, -, -, -, -, -, -, e0, e1, e2, -, -, -, sx, sx1, sx2, -, h12, h4⟩ := idx_facts ⟨(i 0).val / 12, ht⟩
  match a with
  | ⟨0, _⟩ =>
    show win0_3.index ⟨(i 0).val / 12, ht⟩ (0 : Fin 3) * 12 ≤ (i 0).val
      ∧ (i 0).val < win0_3.index ⟨(i 0).val / 12, ht⟩ (0 : Fin 3) * 12 + win0_3.xsize (grid0.coords ⟨(i 0).val / 12, ht⟩) (0 : Fin 3)
    rw [e0, sx]
    show (i 0).val / 12 * 12 ≤ (i 0).val ∧ (i 0).val < (i 0).val / 12 * 12 + win0_0.xsize (grid0.coords ⟨(i 0).val / 12, ht⟩) (0 : Fin 3)
    by_cases h5 : (i 0).val / 12 < 5
    · rw [h12 h5]; omega
    · rw [h4 (by show (i 0).val / 12 = 5; omega)]; omega
  | ⟨1, _⟩ =>
    show win0_3.index ⟨(i 0).val / 12, ht⟩ (1 : Fin 3) * 512 ≤ (i 1).val
      ∧ (i 1).val < win0_3.index ⟨(i 0).val / 12, ht⟩ (1 : Fin 3) * 512 + win0_3.xsize (grid0.coords ⟨(i 0).val / 12, ht⟩) (1 : Fin 3)
    rw [e1, sx1]; omega
  | ⟨2, _⟩ =>
    show win0_3.index ⟨(i 0).val / 12, ht⟩ (2 : Fin 3) * 256 ≤ (i 2).val
      ∧ (i 2).val < win0_3.index ⟨(i 0).val / 12, ht⟩ (2 : Fin 3) * 256 + win0_3.xsize (grid0.coords ⟨(i 0).val / 12, ht⟩) (2 : Fin 3)
    rw [e2, sx2]; omega

/-- THE OUTPUT ARRAY after the run is the gated flattened input. -/
theorem final (c : Dev nD) : (dats m 0 c).arrAt 3 cfg0.N = G m c :=
  (dats m 0 c).arrAt_eq_of_cover 3 (G m c) (fun t _ => flushed_eq m c t) cover

/-! ## The host line after the region, and the run -/

/-- After the region the host gives the output array its two spatial axes back: the program's result. -/
theorem tail_eq (c : Dev nD) :
    Pipeline.afterTail₀ cfgs (dats m) 0 (V0 m) [hostOps1] c main_v4
      = Spec.result shapeCasts_S64x512x16x16_S64x512x256 shapeCasts_S64x512x256_S64x512x16x16
          (m ((c : Thread nD τ).loc main_arg0)) (m ((c : Thread nD τ).loc main_arg1)) (m ((c : Thread nD τ).loc main_arg2)) := by
  have hw := (Pipeline.withArrays_arr spec0 launch0.win.arr_inj c (V0 m c) (fun w => (dats m 0 c).arrAt w cfg0.N) 3).trans (final m c)
  unfold Pipeline.afterTail₀
  show StableHlo.after hostOps1 _ (Proc.devRef .tc main_v4) = _
  after_results
  show (fun i => shapeCast S64x512x16x16 (Pipeline.withArrays spec0 c (V0 m c) (fun w => (dats m 0 c).arrAt w cfg0.N)
    (Proc.devRef .tc (Pipeline.arrRef spec0 3))) shapeCasts_S64x512x256_S64x512x16x16 i) = _
  rw [hw]
  unfold G Spec.result
  rw [V_v0]

/-- THE SECOND PROGRAM'S RUN: it terminates with its result the specification's function of its arguments, and the
    arguments unchanged. -/
theorem run : θ_run defs (onTc (τ := τ) (main (F := Ideal))) ⟨m, fun _ => 0, ρ⟩ (fun r => ∀ c : Dev nD,
      r.2.mem ((c.tc : Thread nD τ).loc main_v4)
          = Spec.result shapeCasts_S64x512x16x16_S64x512x256 shapeCasts_S64x512x256_S64x512x16x16
              (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Hand

end
-- ==== Proof.lean ====
/-
  Channel attention, computed two ways, is one function of its arguments over the extended reals.

  Both programs flatten the input `x : [64, 512, 16, 16]` to 256 lanes per channel, and for each batch element pool every
  channel over its lanes (the mean, as a sum times 2⁻⁸, and the maximum), pass the two pooled vectors through a shared
  two-layer bottleneck (`w1 : [32, 512]`, a rectifier, `w2 : [512, 32]`), add the two outputs, apply the logistic function
  and scale the element's channels by the result.

  The first program works on blocks of sixteen batch elements. It folds the lanes in two halves before reducing them, and
  projects the SUM of the two rectified hidden vectors once. The second works on blocks of twelve (the last block overhangs
  the 64 elements by eight, and only its first four rows are written back); it reduces the lanes directly, stacks the means
  over the maxima, projects all 24 rows at once through transposed copies of the weights, and adds row r to row 12 + r.

  Sums and maxima of finitely many extended reals do not depend on grouping, and `∑ h, (a h + b h) · w h` is
  `∑ h, a h · w h + ∑ h, b h · w h` because rectified values are non-negative (`Spec.logit'_eq`); a row of a matrix product
  depends on the same row of its left factor only, so each batch element's gate is computed from that element alone, in
  either blocking, and whatever the second program's last block holds past the array's end is never seen. Each program's
  result is therefore `Spec.result` of the three arguments; no finiteness of the inputs is used.

  The three frames: the first program's, read at bit patterns and at the extended reals, by its loads and its one covering
  store; the second program's from its body's run on a buffer whose overhang rows hold anything. The idealization rewrote
  nothing, so it is the program's own text.
-/
import proofs.«103905_g2000206657440229_pallasbulk_1272_17_alg».proof.Defs
import proofs.«103905_g2000206657440229_pallasbulk_1272_17_alg».proof.Proof.Gen.Kernel
import proofs.«103905_g2000206657440229_pallasbulk_1272_17_alg».proof.Proof.Gen.Kernel.Frame
import proofs.«103905_g2000206657440229_pallasbulk_1272_17_alg».proof.Proof.Gen.KernelIdeal
import proofs.«103905_g2000206657440229_pallasbulk_1272_17_alg».proof.Proof.Gen.KernelIdeal.Frame
import proofs.«103905_g2000206657440229_pallasbulk_1272_17_alg».proof.Proof.Gen.ReferenceIdeal
import proofs.«103905_g2000206657440229_pallasbulk_1272_17_alg».proof.Proof.Gen.Pre_finite_inputs
import proofs.«103905_g2000206657440229_pallasbulk_1272_17_alg».proof.Proof.KerValue
import proofs.«103905_g2000206657440229_pallasbulk_1272_17_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Hand.frame m ρ

/-- From memories agreeing on the arguments both programs end at `Spec.result` of them. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
